-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel

variable [Facts]

def fn {F : FTy → Type} [FloatOps F] (main_arg0 : FVec F S64x1024x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  main_v3
-- ==== Kernel.lean ====
abbrev S64x1024x768 : Shape := ⟨3, ![64, 1024, 768]⟩
abbrev S64x32x32x768 : Shape := ⟨4, ![64, 32, 32, 768]⟩
abbrev S30x30 : Shape := ⟨2, ![30, 30]⟩
abbrev S2x32x32x768 : Shape := ⟨4, ![2, 32, 32, 768]⟩
abbrev S2x32x31x768 : Shape := ⟨4, ![2, 32, 31, 768]⟩
abbrev S2x31x32x768 : Shape := ⟨4, ![2, 31, 32, 768]⟩
abbrev S2x32x31 : Shape := ⟨3, ![2, 32, 31]⟩
abbrev S2x31x32 : Shape := ⟨3, ![2, 31, 32]⟩
abbrev S32x31 : Shape := ⟨2, ![32, 31]⟩
abbrev S31x32 : Shape := ⟨2, ![31, 32]⟩
abbrev S1x32x32x768 : Shape := ⟨4, ![1, 32, 32, 768]⟩
abbrev S1x30x30x768 : Shape := ⟨4, ![1, 30, 30, 768]⟩
abbrev S1x30x30x1 : Shape := ⟨4, ![1, 30, 30, 1]⟩

abbrev nBuf : Space → Nat
  | .hbm => 5
  | .vmem => 8
  | .smem => 0
  | _ => 0

abbrev bufTy : (tb : Table) → Fin (tcTables nBuf tb) → BufTy
  | .hbm, ⟨0, _⟩ => ⟨S64x1024x768, .f32⟩
  | .hbm, ⟨1, _⟩ => ⟨S64x32x32x768, .f32⟩
  | .hbm, ⟨2, _⟩ => ⟨S30x30, .f32⟩
  | .hbm, ⟨3, _⟩ => ⟨S64x32x32x768, .f32⟩
  | .hbm, ⟨4, _⟩ => ⟨S64x1024x768, .f32⟩
  | .local _ .vmem, ⟨0, _⟩ => ⟨S2x32x32x768, .f32⟩
  | .local _ .vmem, ⟨1, _⟩ => ⟨S2x32x32x768, .f32⟩
  | .local _ .vmem, ⟨2, _⟩ => ⟨S30x30, .f32⟩
  | .local _ .vmem, ⟨3, _⟩ => ⟨S1x32x32x768, .f32⟩
  | .local _ .vmem, ⟨4, _⟩ => ⟨S1x32x32x768, .f32⟩
  | .local _ .vmem, ⟨5, _⟩ => ⟨S30x30, .f32⟩
  | .local _ .vmem, ⟨6, _⟩ => ⟨S1x32x32x768, .f32⟩
  | .local _ .vmem, ⟨7, _⟩ => ⟨S1x32x32x768, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x32x32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x32x32x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S30x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x32x32x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S64x1024x768_S64x32x32x768 : S64x1024x768.ShapeCasts S64x32x32x768
  inb_S2x32x32x768_S2x32x32x768_0_0_0_0 : ∀ a, (![0, 0, 0, 0] : Fin 4 → Nat) a + S2x32x32x768.size a ≤ S2x32x32x768.size a
  h_S2x32x32x768 : 0 < S2x32x32x768.numel
  shapeCasts_S2x32x32x768_S2x32x32x768 : S2x32x32x768.ShapeCasts S2x32x32x768
  slices_S2x32x32x768_o0_0_1_0_S2x32x31x768 : S2x32x32x768.Slices ![0, 0, 1, 0] S2x32x31x768
  slices_S2x32x32x768_o0_0_0_0_S2x32x31x768 : S2x32x32x768.Slices ![0, 0, 0, 0] S2x32x31x768
  slices_S2x32x32x768_o0_1_0_0_S2x31x32x768 : S2x32x32x768.Slices ![0, 1, 0, 0] S2x31x32x768
  slices_S2x32x32x768_o0_0_0_0_S2x31x32x768 : S2x32x32x768.Slices ![0, 0, 0, 0] S2x31x32x768
  reduces_S2x32x31x768_S2x32x31 : S2x32x31x768.Reduces [3] S2x32x31
  reduces_S2x31x32x768_S2x31x32 : S2x31x32x768.Reduces [3] S2x31x32
  natLt_1_32 : 1 < 32
  reduces_S2x32x31_S32x31 : S2x32x31.Reduces [0] S32x31
  reduces_S2x31x32_S31x32 : S2x31x32.Reduces [0] S31x32
  slices_S32x31_o1_0_S30x30 : S32x31.Slices ![1, 0] S30x30
  slices_S32x31_o1_1_S30x30 : S32x31.Slices ![1, 1] S30x30
  slices_S31x32_o0_1_S30x30 : S31x32.Slices ![0, 1] S30x30
  slices_S31x32_o1_1_S30x30 : S31x32.Slices ![1, 1] S30x30
  inb_S30x30_S30x30_0_0 : ∀ a, (![0, 0] : Fin 2 → Nat) a + S30x30.size a ≤ S30x30.size a
  h_S30x30 : 0 < S30x30.numel
  shapeCasts_S30x30_S30x30 : S30x30.ShapeCasts S30x30
  inb_S1x32x32x768_S1x32x32x768_0_0_0_0 : ∀ a, (![0, 0, 0, 0] : Fin 4 → Nat) a + S1x32x32x768.size a ≤ S1x32x32x768.size a
  h_S1x32x32x768 : 0 < S1x32x32x768.numel
  shapeCasts_S1x32x32x768_S1x32x32x768 : S1x32x32x768.ShapeCasts S1x32x32x768
  slices_S1x32x32x768_o0_0_1_0_S1x30x30x768 : S1x32x32x768.Slices ![0, 0, 1, 0] S1x30x30x768
  slices_S1x32x32x768_o0_2_1_0_S1x30x30x768 : S1x32x32x768.Slices ![0, 2, 1, 0] S1x30x30x768
  slices_S1x32x32x768_o0_1_0_0_S1x30x30x768 : S1x32x32x768.Slices ![0, 1, 0, 0] S1x30x30x768
  slices_S1x32x32x768_o0_1_2_0_S1x30x30x768 : S1x32x32x768.Slices ![0, 1, 2, 0] S1x30x30x768
  slices_S1x32x32x768_o0_1_1_0_S1x30x30x768 : S1x32x32x768.Slices ![0, 1, 1, 0] S1x30x30x768
  shapeCasts_S30x30_S1x30x30x1 : S30x30.ShapeCasts S1x30x30x1
  broadcasts_S1x30x30x1_S1x30x30x768 : S1x30x30x1.Broadcasts S1x30x30x768
  inb_S1x32x32x768_S1x30x30x768_0_1_1_0 : ∀ a, (![0, 1, 1, 0] : Fin 4 → Nat) a + S1x30x30x768.size a ≤ S1x32x32x768.size a
  h_S1x30x30x768 : 0 < S1x30x30x768.numel
  shapeCasts_S64x32x32x768_S64x1024x768 : S64x32x32x768.ShapeCasts S64x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x32x768.size a ≤ S64x32x32x768.size a
  hwx0_0 : ∀ i : grid0.Coords, EltTy.bits .f32 = 32 ∨ (Rect.block (s := S64x32x32x768) S2x32x32x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x30.size a ≤ S30x30.size a
  hwx0_1 : ∀ i : grid0.Coords, EltTy.bits .f32 = 32 ∨ (Rect.block (s := S30x30) S30x30.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x32x768.size a ≤ S64x32x32x768.size a
  hwx1_0 : ∀ i : grid1.Coords, EltTy.bits .f32 = 32 ∨ (Rect.block (s := S64x32x32x768) S1x32x32x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S30x30.size a ≤ S30x30.size a
  hwx1_1 : ∀ i : grid1.Coords, EltTy.bits .f32 = 32 ∨ (Rect.block (s := S30x30) S30x30.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x32x768.size a ≤ S64x32x32x768.size a
  hwx1_2 : ∀ i : grid1.Coords, EltTy.bits .f32 = 32 ∨ (Rect.block (s := S64x32x32x768) S1x32x32x768.size (cc1_transform_2 i) (hinb1_2 i)).WholeWords (EltTy.packing .f32)

variable [Facts₀]

abbrev win0_0 : Pipeline.Window sig grid0 :=
  Pipeline.Window.ofSpec (Memref.whole main_v0) S2x32x32x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S30x30.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x32x32x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S30x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32x32x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x1024x768 : Shape := ⟨3, ![64, 1024, 768]⟩
abbrev S64x32x32x768 : Shape := ⟨4, ![64, 32, 32, 768]⟩
abbrev S64x32x31x768 : Shape := ⟨4, ![64, 32, 31, 768]⟩
abbrev S64x31x32x768 : Shape := ⟨4, ![64, 31, 32, 768]⟩
abbrev S_ : Shape := ⟨0, ![]⟩
abbrev S64x32x31 : Shape := ⟨3, ![64, 32, 31]⟩
abbrev S64x31x32 : Shape := ⟨3, ![64, 31, 32]⟩
abbrev S32x31 : Shape := ⟨2, ![32, 31]⟩
abbrev S31x32 : Shape := ⟨2, ![31, 32]⟩
abbrev S30x30 : Shape := ⟨2, ![30, 30]⟩
abbrev S64x30x30x768 : Shape := ⟨4, ![64, 30, 30, 768]⟩
abbrev S1x30x30x1 : Shape := ⟨4, ![1, 30, 30, 1]⟩
abbrev S1 : Shape := ⟨1, ![1]⟩
abbrev S2 : Shape := ⟨1, ![2]⟩

abbrev nBuf : Space → Nat
  | .hbm => 61
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S64x32x32x768, .f32⟩
  | .hbm, ⟨2, _⟩ => ⟨S64x32x31x768, .f32⟩
  | .hbm, ⟨3, _⟩ => ⟨S64x32x31x768, .f32⟩
  | .hbm, ⟨4, _⟩ => ⟨S64x32x31x768, .f32⟩
  | .hbm, ⟨5, _⟩ => ⟨S64x31x32x768, .f32⟩
  | .hbm, ⟨6, _⟩ => ⟨S64x31x32x768, .f32⟩
  | .hbm, ⟨7, _⟩ => ⟨S64x31x32x768, .f32⟩
  | .hbm, ⟨8, _⟩ => ⟨S64x32x31x768, .f32⟩
  | .hbm, ⟨9, _⟩ => ⟨S_, .f32⟩
  | .hbm, ⟨10, _⟩ => ⟨S64x32x31, .f32⟩
  | .hbm, ⟨11, _⟩ => ⟨S64x32x31, .f32⟩
  | .hbm, ⟨12, _⟩ => ⟨S64x31x32x768, .f32⟩
  | .hbm, ⟨13, _⟩ => ⟨S_, .f32⟩
  | .hbm, ⟨14, _⟩ => ⟨S64x31x32, .f32⟩
  | .hbm, ⟨15, _⟩ => ⟨S64x31x32, .f32⟩
  | .hbm, ⟨16, _⟩ => ⟨S_, .f32⟩
  | .hbm, ⟨17, _⟩ => ⟨S64x32x31, .f32⟩
  | .hbm, ⟨18, _⟩ => ⟨S64x32x31, .i1⟩
  | .hbm, ⟨19, _⟩ => ⟨S_, .i1⟩
  | .hbm, ⟨20, _⟩ => ⟨S32x31, .i1⟩
  | .hbm, ⟨21, _⟩ => ⟨S_, .f32⟩
  | .hbm, ⟨22, _⟩ => ⟨S64x31x32, .f32⟩
  | .hbm, ⟨23, _⟩ => ⟨S64x31x32, .i1⟩
  | .hbm, ⟨24, _⟩ => ⟨S_, .i1⟩
  | .hbm, ⟨25, _⟩ => ⟨S31x32, .i1⟩
  | .hbm, ⟨26, _⟩ => ⟨S30x30, .i1⟩
  | .hbm, ⟨27, _⟩ => ⟨S30x30, .i1⟩
  | .hbm, ⟨28, _⟩ => ⟨S30x30, .i1⟩
  | .hbm, ⟨29, _⟩ => ⟨S30x30, .i1⟩
  | .hbm, ⟨30, _⟩ => ⟨S30x30, .i1⟩
  | .hbm, ⟨31, _⟩ => ⟨S30x30, .i1⟩
  | .hbm, ⟨32, _⟩ => ⟨S30x30, .i1⟩
  | .hbm, ⟨33, _⟩ => ⟨S64x30x30x768, .f32⟩
  | .hbm, ⟨34, _⟩ => ⟨S64x30x30x768, .f32⟩
  | .hbm, ⟨35, _⟩ => ⟨S64x30x30x768, .f32⟩
  | .hbm, ⟨36, _⟩ => ⟨S64x30x30x768, .f32⟩
  | .hbm, ⟨37, _⟩ => ⟨S64x30x30x768, .f32⟩
  | .hbm, ⟨38, _⟩ => ⟨S64x30x30x768, .f32⟩
  | .hbm, ⟨39, _⟩ => ⟨S64x30x30x768, .f32⟩
  | .hbm, ⟨40, _⟩ => ⟨S_, .f32⟩
  | .hbm, ⟨41, _⟩ => ⟨S64x30x30x768, .f32⟩
  | .hbm, ⟨42, _⟩ => ⟨S64x30x30x768, .f32⟩
  | .hbm, ⟨43, _⟩ => ⟨S64x30x30x768, .f32⟩
  | .hbm, ⟨44, _⟩ => ⟨S_, .f32⟩
  | .hbm, ⟨45, _⟩ => ⟨S64x30x30x768, .f32⟩
  | .hbm, ⟨46, _⟩ => ⟨S64x30x30x768, .f32⟩
  | .hbm, ⟨47, _⟩ => ⟨S_, .f32⟩
  | .hbm, ⟨48, _⟩ => ⟨S64x30x30x768, .f32⟩
  | .hbm, ⟨49, _⟩ => ⟨S64x30x30x768, .f32⟩
  | .hbm, ⟨50, _⟩ => ⟨S64x30x30x768, .f32⟩
  | .hbm, ⟨51, _⟩ => ⟨S1x30x30x1, .i1⟩
  | .hbm, ⟨52, _⟩ => ⟨S64x30x30x768, .i1⟩
  | .hbm, ⟨53, _⟩ => ⟨S64x30x30x768, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S64x32x32x768, .f32⟩
  | .hbm, ⟨60, _⟩ => ⟨S64x1024x768, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_v42 : Ref sig .tc := ⟨.hbm, 53, rfl⟩
abbrev main_c_7 : Ref sig .tc := ⟨.hbm, 54, rfl⟩
abbrev main_v43 : Ref sig .tc := ⟨.hbm, 55, rfl⟩
abbrev main_c_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  shapeCasts_S64x1024x768_S64x32x32x768 : S64x1024x768.ShapeCasts S64x32x32x768
  slices_S64x32x32x768_S64x32x31x768_0_0_1_0 : S64x32x32x768.Slices ![0, 0, 1, 0] S64x32x31x768
  slices_S64x32x32x768_S64x32x31x768_0_0_0_0 : S64x32x32x768.Slices ![0, 0, 0, 0] S64x32x31x768
  slices_S64x32x32x768_S64x31x32x768_0_1_0_0 : S64x32x32x768.Slices ![0, 1, 0, 0] S64x31x32x768
  slices_S64x32x32x768_S64x31x32x768_0_0_0_0 : S64x32x32x768.Slices ![0, 0, 0, 0] S64x31x32x768
  reducesTo_S64x32x31x768_S64x32x31_d3 : S64x32x31x768.ReducesTo [3] S64x32x31
  h_S_ : 0 < S_.numel
  reducesTo_S64x31x32x768_S64x31x32_d3 : S64x31x32x768.ReducesTo [3] S64x31x32
  bcast_S_S64x32x31 : S_.BroadcastsInDim S64x32x31 (![] : Fin 0 → Fin S64x32x31.rank)
  reducesTo_S64x32x31_S32x31_d0 : S64x32x31.ReducesTo [0] S32x31
  bcast_S_S64x31x32 : S_.BroadcastsInDim S64x31x32 (![] : Fin 0 → Fin S64x31x32.rank)
  reducesTo_S64x31x32_S31x32_d0 : S64x31x32.ReducesTo [0] S31x32
  slices_S32x31_S30x30_1_0 : S32x31.Slices ![1, 0] S30x30
  slices_S32x31_S30x30_1_1 : S32x31.Slices ![1, 1] S30x30
  slices_S31x32_S30x30_0_1 : S31x32.Slices ![0, 1] S30x30
  slices_S31x32_S30x30_1_1 : S31x32.Slices ![1, 1] S30x30
  slices_S64x32x32x768_S64x30x30x768_0_0_1_0 : S64x32x32x768.Slices ![0, 0, 1, 0] S64x30x30x768
  slices_S64x32x32x768_S64x30x30x768_0_2_1_0 : S64x32x32x768.Slices ![0, 2, 1, 0] S64x30x30x768
  slices_S64x32x32x768_S64x30x30x768_0_1_0_0 : S64x32x32x768.Slices ![0, 1, 0, 0] S64x30x30x768
  slices_S64x32x32x768_S64x30x30x768_0_1_2_0 : S64x32x32x768.Slices ![0, 1, 2, 0] S64x30x30x768
  bcast_S_S64x30x30x768 : S_.BroadcastsInDim S64x30x30x768 (![] : Fin 0 → Fin S64x30x30x768.rank)
  slices_S64x32x32x768_S64x30x30x768_0_1_1_0 : S64x32x32x768.Slices ![0, 1, 1, 0] S64x30x30x768
  bcast_S30x30_S1x30x30x1_1_2 : S30x30.BroadcastsInDim S1x30x30x1 (![1, 2] : Fin 2 → Fin S1x30x30x1.rank)
  bcast_S1x30x30x1_S64x30x30x768_0_1_2_3 : S1x30x30x1.BroadcastsInDim S64x30x30x768 (![0, 1, 2, 3] : Fin 4 → Fin S64x30x30x768.rank)
  bcast_S_S1 : S_.BroadcastsInDim S1 (![] : Fin 0 → Fin S1.rank)
  concatenates_S1_S1_S2_d0 : Shape.Concatenates [S1, S1] S2 0
  shapeCasts_S64x32x32x768_S64x1024x768 : S64x32x32x768.ShapeCasts S64x1024x768
  scatter_S64x32x32x768_S2_S64x30x30x768_0123_n_12_0_wf : ScatterDims.WF S64x32x32x768 S2 S64x30x30x768 [0, 1, 2, 3] [] [1, 2] 0

variable [Facts₀]

def scatter_S64x32x32x768_S2_S64x30x30x768_0123_n_12_0 : ScatterDims S64x32x32x768 S2 S64x30x30x768 where
  updateWindowDims := [0, 1, 2, 3]
  insertedWindowDims := []
  scatterDimsToOperandDims := [1, 2]
  indexVectorDim := 0
  wf := scatter_S64x32x32x768_S2_S64x30x30x768_0123_n_12_0_wf

class Facts : Prop extends Facts₀ where

variable [Facts]
-- ==== Proof.K.MaskDefs.lean ====
/-
  The first region accumulates the 0/1 array of hot cells over 32 grid points, two grids of the batch per point.
  Stated here, for any contents V of the buffers at the region's entry: the block of each window at a point, that the
  input window's staging buffer holds its block at every point, and the one condition the body branches on — "this is
  the first point" — in closed form over the grid.
-/
import proofs.«142496_j15977278341524_1_alg».proof.Proof.Gen.Kernel.Launch
import proofs.«142496_j15977278341524_1_alg».proof.Proof.Gen.Kernel.Skeleton
import proofs.«142496_j15977278341524_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition, "the grid coordinate is zero", as the scalar chain the body computes. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-- The output window's one staging buffer, through which its contents are stated. -/
abbrev VO0_1 : View sig .tc .vmem S30x30 .f32 := (Memref.whole cc0_stg1_0 : Memref sig .tc .vmem S30x30 .f32).view
/-- Each window's current staging memref at point t, as the pipeline passes it, and its wholeness. -/
abbrev ms0_0 (t : Fin cfg0.N) : Memref sig .tc .vmem S2x32x32x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S30x30 .f32 := win0_1.stage (cfg0.slots t 1)
abbrev hs0_1 (t : Fin cfg0.N) : (ms0_1 t).IsWhole := hstage0_1 ((cfg0.slots t 1).cast nbuf0_1)

end Cert.Kernel.Hand

end
-- ==== Proof.K.MaskRunA.lean ====
/-
  The accumulating body at the FIRST point: it clears the array of hot cells and then takes the maximum of the
  cleared array with the point's own cells. The run finds the pieces the array's buffer ends with.
-/
import proofs.«142496_j15977278341524_1_alg».proof.Proof.K.MaskDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the branch taken), on whole staging memrefs — the input's at its contents x0, the array's at
    anything — the body runs to the continuation holding the input's as it was and the array's buffer with the found
    pieces written. -/
noncomputable def maskRunA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) :
    { L1 : List (View.Piece (Elt F) S30x30 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__mask_kernel i arg1 harg1 arg2 harg2) K } := by
  refine ⟨?_, fun E K => ?run⟩
  case run =>
    simp only [cc0__mask_kernel_eq_skeleton]; unfold cc0__mask_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

end Cert.Kernel.Hand

end
-- ==== Proof.K.MaskRunB.lean ====
/-
  The accumulating body at a LATER point: it takes the maximum of the array of hot cells, as the point before left
  it, with the point's own cells. The run finds the pieces the array's buffer ends with.
-/
import proofs.«142496_j15977278341524_1_alg».proof.Proof.K.MaskRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later point (the branch not taken), on whole staging memrefs — the input's at its contents x0, the array's at
    its running contents xo1 — the body runs to the continuation holding the input's as it was and the array's buffer
    with the found pieces written. -/
noncomputable def maskRunB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) :
    { L1 : List (View.Piece (Elt F) S30x30 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__mask_kernel i arg1 harg1 arg2 harg2) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

end Cert.Kernel.Hand

end
-- ==== Proof.K.MaskBody.lean ====
/-
  The first region, point by point. What the array of hot cells holds after each grid point is a recursion on the
  point: at the first point the body's result over a cleared array, at every later point the body's result over what
  the point before left (the array's buffer is written back only after the last point). With it: the region's proof
  data and the body's obligation at every point.
-/
import proofs.«142496_j15977278341524_1_alg».proof.Proof.K.MaskRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first point's pieces tile the array's buffer, so they cover it. -/
theorem maskCoverA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) (y : S30x30.Idx) :
    ∃ pc ∈ (maskRunA c i arg1 harg1 arg2 harg2 hc0 x0).1, y ∈ pc.1.set :=
  View.cover_of_tiledL (maskRunA c i arg1 harg1 arg2 harg2 hc0 x0).1 S30x30.size (by sl_kernel_rfl) y

/-- What the first point leaves in the array's buffer: its pieces read back. -/
def maskOutA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) : Vec F S30x30 .f32 :=
  VO0_1.read (Elt F) (VO0_1.writes (Elt F) VO0_1.junk (maskRunA c i arg1 harg1 arg2 harg2 hc0 x0).1)

/-- A later point's pieces tile the array's buffer, so they cover it. -/
theorem maskCoverB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) (y : S30x30.Idx) :
    ∃ pc ∈ (maskRunB c i arg1 harg1 arg2 harg2 hc0 x0 xo1).1, y ∈ pc.1.set :=
  View.cover_of_tiledL (maskRunB c i arg1 harg1 arg2 harg2 hc0 x0 xo1).1 S30x30.size (by sl_kernel_rfl) y

/-- What a later point leaves in the array's buffer: its pieces read back. -/
def maskOutB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) : Vec F S30x30 .f32 :=
  VO0_1.read (Elt F) (VO0_1.writes (Elt F) VO0_1.junk (maskRunB c i arg1 harg1 arg2 harg2 hc0 x0 xo1).1)

/-- THE ACCUMULATION: what the array's buffer holds after the body at position n. -/
def maskAt (c : Dev nD) : (n : ℕ) → n < cfg0.N → Vec F S30x30 .f32
  | 0, hn => maskOutA c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 32 = 0 then
      maskOutA c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      maskOutB c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (maskAt c n (Nat.lt_of_succ_lt hn))

/-- The accumulation at the first point. -/
theorem maskAt_A (c : Dev nD) (t : Fin cfg0.N) (h0 : t.val % 32 = 0) :
    maskAt V c t.val t.isLt = maskOutA c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- The accumulation at a later point: over what the point before left. -/
theorem maskAt_B (c : Dev nD) (t : Fin cfg0.N) (h0 : ¬t.val % 32 = 0) :
    maskAt V c t.val t.isLt = maskOutB c (grid0.coords t) (ms0_0 t) (hs0_0 t) (ms0_1 t) (hs0_1 t) (fun h => h0 ((hcond0_0 t).mp h)) (iblk0 V c 0 t) (maskAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point t the input's buffer at its block and the array of
    hot cells at the accumulation; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (maskAt V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (maskAt V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later point the array's staging buffer holds what the body left at the point before: it is not written back
    in between. -/
theorem before0_1_B (c : Dev nD) (t : Fin cfg0.N) (h0 : ¬t.val % 32 = 0) (d) :
    (dat0 V c).before 1 t d = (maskAt V c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form says which case the point is in; at a
    later point the array's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 32 := lt_of_lt_of_eq t.isLt (show cfg0.N = 32 from N_0)
  by_cases h0 : t.val % 32 = 0
  · rw [maskAt_A V c t h0]
    unfold maskOutA
    iintro ⟨HΦ, Ho, ⟨%d0, H0⟩, ⟨%d1, H1⟩⟩
    iapply ((maskRunA c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (maskCoverA c _ _ _ _ _ _ _)
  · rw [maskAt_B V c t h0]
    simp only [before0_1_B V c t h0]
    unfold maskOutB
    iintro ⟨HΦ, Ho, ⟨%d0, H0⟩, ⟨%d1, H1⟩⟩
    iapply ((maskRunB c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (maskCoverB c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.BlendBody.lean ====
import proofs.«142496_j15977278341524_1_alg».proof.Proof.Gen.Kernel.Launch
import proofs.«142496_j15977278341524_1_alg».proof.Proof.Gen.Kernel.Skeleton
import proofs.«142496_j15977278341524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the second pipelined call is entered
variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image block (window 0) is in its buffer at every point: it is brought in at every point, and the body
    leaves it as it found it. Stated for any proof data with the entry contents as arrays (`hA`) whose body keeps
    the block (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 30×30 mask (window 1) is brought in at the first point only; its block index is the same at every point, so
    at a later point the buffer still holds the block the body left there, which is this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two rectangles the body stores through -/

/-- The whole 1×32×32×768 block. -/
abbrev rWhole1 : Rect S1x32x32x768 := Rect.unit (s := S1x32x32x768) ![0, 0, 0, 0] S1x32x32x768.size inb_S1x32x32x768_S1x32x32x768_0_0_0_0
/-- Its interior: rows and columns 1 … 30, every channel. -/
abbrev rInt1 : Rect S1x32x32x768 := Rect.unit (s := S1x32x32x768) ![0, 1, 1, 0] S1x30x30x768.size inb_S1x32x32x768_S1x30x30x768_0_1_1_0

/-- Four zero offsets are the zero function, -/
theorem zeros4 : (![0, 0, 0, 0] : Fin 4 → ℕ) = fun _ => 0 := by
  funext a; fin_cases a <;> rfl

/-- and two likewise. -/
theorem zeros2 : (![0, 0] : Fin 2 → ℕ) = fun _ => 0 := by
  funext a; fin_cases a <;> rfl

/-! ## What the body leaves in the output block -/

/-- The output block after the body, from the two input blocks: `x0` copied over the whole block, then the blend
    written over the interior — as pieces, the LAST store first. It depends on the two blocks only. -/
def out1_2 (x0 : Vec F S1x32x32x768 .f32) (x1 : Vec F S30x30 .f32) : Vec F S1x32x32x768 .f32 :=
  View.canon [⟨rInt1, k1_pay2 x0 x1⟩, ⟨rWhole1, k1_pay1 x0⟩]

theorem out1_2_eq (x0 : Vec F S1x32x32x768 .f32) (x1 : Vec F S30x30 .f32) :
    out1_2 x0 x1 = View.canon [⟨rInt1, k1_pay2 x0 x1⟩, ⟨rWhole1, k1_pay1 x0⟩] := rfl

/-- The two stores cover the block, whatever they write: every index lies in the whole rectangle. -/
theorem cover1_2 (p0 : Vec F S1x30x30x768 .f32) (p1 : Vec F S1x32x32x768 .f32) (y : S1x32x32x768.Idx) :
    ∃ pc ∈ ([⟨rInt1, p0⟩, ⟨rWhole1, p1⟩] : List (View.Piece (Elt F) S1x32x32x768 .f32)), y ∈ pc.1.set :=
  ⟨⟨rWhole1, p1⟩, List.mem_cons_of_mem _ List.mem_cons_self,
    View.mem_set_unit_zero (S := S1x32x32x768) zeros4 inb_S1x32x32x768_S1x32x32x768_0_0_0_0 y⟩

/-! ## The body's triple -/

set_option maxHeartbeats 1000000 in
/-- The body on three whole buffers — the image block `x0`, the mask `x1`, the output's at anything — runs to the
    continuation with the inputs as they were and the output holding `out1_2 x0 x1`. It reads the two inputs whole
    (a read through the whole rectangle is the contents), reads the output twice without using what it reads, and
    stores twice: what the output held before does not matter because the two stores cover it. -/
theorem sound_kernel1 (c : Dev nD) (E : Set ℕ) (i : grid1.Coords)
    (arg1 : Memref sig .tc .vmem S1x32x32x768 .f32) (harg1 : arg1.IsWhole)
    (arg2 : Memref sig .tc .vmem S30x30 .f32) (harg2 : arg2.IsWhole)
    (arg3 : Memref sig .tc .vmem S1x32x32x768 .f32) (harg3 : arg3.IsWhole)
    (x0 : Vec F S1x32x32x768 .f32) (x1 : Vec F S30x30 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__blend_kernel i arg1 harg1 arg2 harg2 arg3 harg3) K := by
  simp only [cc1__blend_kernel_eq_skeleton]; unfold cc1__blend_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _ _)]
  simp only [View.readAt_eq_ld, View.ld_unit_zero (S := S1x32x32x768) zeros4, View.ld_unit_zero (S := S30x30) zeros2]
  rfl

/-! ## The pipeline's proof data -/

/-- The proof data of the second pipelined call on core `c`: the arrays at the entry contents `V`; after the body at
    point `t` each input's buffer at its block and the output's at `out1_2` of the two input blocks; the invariant
    that leaves the other scoped buffers and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  THE RUN of the whole program: a reshape on the host, the region that accumulates the array of hot cells, the region
  that blends, a reshape on the host. The contents of every buffer at each boundary are a fold from the launch memory:
  a host stretch applies its operations; a region replaces its windows' arrays by what its write-backs leave and keeps
  every other buffer. Every weakly fair execution terminates, and at the end EVERY unscoped buffer holds the last
  boundary's contents — in particular the result, and the argument as launched.
-/
import proofs.«142496_j15977278341524_1_alg».proof.Proof.K.MaskBody
import proofs.«142496_j15977278341524_1_alg».proof.Proof.K.BlendBody
import proofs.«142496_j15977278341524_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev cont0 : Dev nD → Valuation τ sig (Elt F) := fun c b => (s₀ m ρ).mem ((c : Dev nD), b)
/-- After the first host stretch: the first region's entry. -/
abbrev cont1 : Dev nD → Valuation τ sig (Elt F) := fun c => StableHlo.after hostOps0 (cont0 m ρ c)
/-- The same read at the TensorCore's references. -/
abbrev ent0 : (c : Dev nD) → (b : Ref sig .tc) → Buf (Elt F) ((c : Thread nD τ).loc b) := fun c b => cont1 m ρ c b
/-- At the first region's exit: its arrays at what the pipeline leaves, every other buffer as entered. -/
def cont2 (c : Dev nD) : Valuation τ sig (Elt F) :=
  Pipeline.withArrays spec0 c (cont1 m ρ c) fun w => (dat0 (ent0 m ρ) c).arrAt w cfg0.N
theorem cont2_arr (c : Dev nD) (w : Fin cfg0.W) :
    cont2 m ρ c (Proc.devRef .tc (Pipeline.arrRef spec0 w)) = (dat0 (ent0 m ρ) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m ρ c (Proc.devRef .tc b) = cont1 m ρ c (Proc.devRef .tc b) := by
  unfold cont2; exact Pipeline.withArrays_of_ne spec0 c _ _ b hb
/-- The same read at the TensorCore's references: the second region's entry. -/
abbrev ent1 : (c : Dev nD) → (b : Ref sig .tc) → Buf (Elt F) ((c : Thread nD τ).loc b) := fun c b => cont2 m ρ c b
theorem exitArr0 (c : Dev nD) (w : Fin cfg0.W) : (dat0 (ent0 m ρ) c).arrAt w cfg0.N = ent1 m ρ c (Pipeline.arrRef spec0 w) :=
  (cont2_arr m ρ c w).symm
theorem exitRest0 (c : Dev nD) : ∀ b, b ∉ Finset.univ.image (Pipeline.arrRef spec0) → ent1 m ρ c b = ent0 m ρ c b :=
  fun b hb => cont2_of_ne m ρ c b fun w e => hb (Finset.mem_image.mpr ⟨w, Finset.mem_univ _, e⟩)

/-- At the second region's exit: its arrays at what the pipeline leaves, every other buffer as entered. -/
def cont3 (c : Dev nD) : Valuation τ sig (Elt F) :=
  Pipeline.withArrays spec1 c (cont2 m ρ c) fun w => (dat1 (ent1 m ρ) c).arrAt w cfg1.N
theorem cont3_arr (c : Dev nD) (w : Fin cfg1.W) :
    cont3 m ρ c (Proc.devRef .tc (Pipeline.arrRef spec1 w)) = (dat1 (ent1 m ρ) c).arrAt w cfg1.N := by
  unfold cont3; exact Pipeline.withArrays_arr spec1 launch1.win.arr_inj c _ _ w
theorem cont3_of_ne (c : Dev nD) (b : Ref sig .tc) (hb : ∀ w, Pipeline.arrRef spec1 w ≠ b) :
    cont3 m ρ c (Proc.devRef .tc b) = cont2 m ρ c (Proc.devRef .tc b) := by
  unfold cont3; exact Pipeline.withArrays_of_ne spec1 c _ _ b hb
abbrev ext1 : (c : Dev nD) → (b : Ref sig .tc) → Buf (Elt F) ((c : Thread nD τ).loc b) := fun c b => cont3 m ρ c b
theorem exitArr1 (c : Dev nD) (w : Fin cfg1.W) : (dat1 (ent1 m ρ) c).arrAt w cfg1.N = ext1 m ρ c (Pipeline.arrRef spec1 w) :=
  (cont3_arr m ρ c w).symm
theorem exitRest1 (c : Dev nD) : ∀ b, b ∉ Finset.univ.image (Pipeline.arrRef spec1) → ext1 m ρ c b = ent1 m ρ c b :=
  fun b hb => cont3_of_ne m ρ c b fun w e => hb (Finset.mem_image.mpr ⟨w, Finset.mem_univ _, e⟩)

/-- After the last host stretch: the end. -/
abbrev cont4 : Dev nD → Valuation τ sig (Elt F) := fun c => StableHlo.after hostOps2 (cont3 m ρ c)

/-- The argument ends as launched: no host operation writes it and no region's window is on it. -/
theorem cont4_main_arg0 (c : Dev nD) : cont4 m ρ c (Proc.devRef .tc main_arg0) = m ((c : Thread nD τ).loc main_arg0) :=
  calc cont4 m ρ c (Proc.devRef .tc main_arg0)
    _ = cont3 m ρ c (Proc.devRef .tc main_arg0) := StableHlo.after_of_writes_sub hostOps2 _ hostOps2_writes (by decide)
    _ = cont2 m ρ c (Proc.devRef .tc main_arg0) := cont3_of_ne m ρ c main_arg0 (by decide)
    _ = cont1 m ρ c (Proc.devRef .tc main_arg0) := cont2_of_ne m ρ c main_arg0 (by decide)
    _ = cont0 m ρ c (Proc.devRef .tc main_arg0) := StableHlo.after_of_writes_sub hostOps0 _ hostOps0_writes (by decide)
    _ = m ((c : Thread nD τ).loc main_arg0) := rfl

/-! ## The proof data family and the thread state -/

/-- Every pipeline's proof data, each at its region's entry contents. -/
def regionData : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
/-- No core owes another anything: no level is assigned. -/
abbrev noPairs : GSem nD τ sig → Finset Unit := fun _ => ∅
abbrev noLevel : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)
/-- A host stretch as a segment over the unscoped references. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev lastT (c : Dev nD) : sProp 𝕄 := iprop(StableHlo.held (c : Thread nD τ) (Pipeline.ucRefs τ sig) (cont4 m ρ c) ∗ ∃ r, prngReg c r)

/-! ## The regions as segments -/

set_option backward.isDefEq.respectTransparency.types false in
/-- The first region over the thread state: entered from every unscoped buffer at cont1, left at cont2. -/
def region0 : Pipeline.RegionSeg (pcfgs (F := F)) adm (regionData m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ noPairs noLevel 0 fun _ _ => rfl
  pre c := iprop(StableHlo.held (c : Thread nD τ) (Pipeline.ucRefs τ sig) (cont1 m ρ c) ∗ rest c)
  post c := iprop(StableHlo.held (c : Thread nD τ) (Pipeline.ucRefs τ sig) (cont2 m ρ c) ∗ rest c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (regionData m ρ) launch0.win launch0.arr_whole c
      ((regionData m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionData m ρ) ((regionData m ρ 0 c).share_full fun _ => rfl)
      (ent0 m ρ c) (ent1 m ρ c) ((regionData m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at cont2, left at cont3. -/
def region1 : Pipeline.RegionSeg (pcfgs (F := F)) adm (regionData m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ noPairs noLevel 1 fun _ _ => rfl
  pre c := iprop(StableHlo.held (c : Thread nD τ) (Pipeline.ucRefs τ sig) (cont2 m ρ c) ∗ rest c)
  post c := iprop(StableHlo.held (c : Thread nD τ) (Pipeline.ucRefs τ sig) (cont3 m ρ c) ∗ rest c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (regionData m ρ) launch1.win launch1.arr_whole c
      ((regionData m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionData m ρ) ((regionData m ρ 1 c).share_full fun _ => rfl)
      (ent1 m ρ c) (ext1 m ρ c) ((regionData m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev mainSegs : List (Pipeline.Seg (pcfgs (F := F)) adm (regionData m ρ) () defs₀ Variants.none noPairs noLevel) :=
  [ .host (hostSeg hostOps0 hostOps0_sub hostOps0_fresh (cont0 m ρ)),
    .region (region0 m ρ),
    .region (region1 m ρ),
    .host (hostSeg hostOps2 hostOps2_sub hostOps2_fresh (cont3 m ρ)) ]
/-- @main IS the run of the segments. -/
theorem main_is_run (c : Dev nD) : main (F := F) c = Pipeline.Seg.run (mainSegs m ρ) := (main_chain c).trans (by chain_rfl)

set_option backward.isDefEq.respectTransparency.types false in
/-- THE RUN: from any memory with zero counters every weakly fair execution of @main terminates, nothing faulting, and
    every final state has the result buffer at the last boundary's contents and the argument as launched. -/
theorem run_all : θ_run defs (onTc (τ := τ) (main (F := F))) ⟨m, fun _ => 0, ρ⟩ (fun r => ∀ c : Dev nD,
      r.2.mem ((c.tc : Thread nD τ).loc main_v3) = cont4 m ρ c (Proc.devRef .tc main_v3)
      ∧ r.2.mem ((c.tc : Thread nD τ).loc main_arg0) = m ((c.tc : Thread nD τ).loc main_arg0)) :=
  Pipeline.θ_run_regions_kit (pcfgs (F := F)) adm (regionData m ρ) () cellOf_inj emb₁ defs₀ Variants.none noPairs noLevel m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m ρ c) ∗ rest c)) (Tₙ := lastT m ρ)
    (hch := ⟨fun _ => .rfl, fun _ => .rfl, fun _ => .rfl, fun _ => .rfl, fun c => by
      show (iprop(StableHlo.held (c : Thread nD τ) (Pipeline.ucRefs τ sig) (cont4 m ρ c) ∗ rest c) : sProp 𝕄)
        ⊢ iprop(lastT m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (cont0 m ρ c)
        from Pipeline.unscopedBufs_held c (cont0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont4 m ρ c b)
    (hfin := fun c s' => by
      iintro ⟨⟨Hh, -⟩, HSI⟩
      unfold StableHlo.held
      imodintro
      iapply (pointsTo_read_all (Pipeline.ucRefs τ sig) (fun b => (((c : Thread nD τ)).1, b)) (cont4 m ρ c) s')
      isplitl [Hh] <;> iassumption)
    (hQ := fun s h c =>
      ⟨h c _ (mem_ucRefs main_v3 (by decide)), (h c _ (mem_ucRefs main_arg0 (by decide))).trans (cont4_main_arg0 m ρ c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_all m ρ)

end Cert.Kernel.Hand

end
-- ==== Proof.MaskDefs.lean ====
/-
  The first region accumulates the 0/1 array of hot cells over 32 grid points, two grids of the batch per point.
  Stated here, for any contents V of the buffers at the region's entry: the block of each window at a point, that the
  input window's staging buffer holds its block at every point, and the one condition the body branches on — "this is
  the first point" — in closed form over the grid.
-/
import proofs.«142496_j15977278341524_1_alg».proof.Proof.Gen.KernelIdeal.Launch
import proofs.«142496_j15977278341524_1_alg».proof.Proof.Gen.KernelIdeal.Skeleton
import proofs.«142496_j15977278341524_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition, "the grid coordinate is zero", as the scalar chain the body computes. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-- The output window's one staging buffer, through which its contents are stated. -/
abbrev VO0_1 : View sig .tc .vmem S30x30 .f32 := (Memref.whole cc0_stg1_0 : Memref sig .tc .vmem S30x30 .f32).view
/-- Each window's current staging memref at point t, as the pipeline passes it, and its wholeness. -/
abbrev ms0_0 (t : Fin cfg0.N) : Memref sig .tc .vmem S2x32x32x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S30x30 .f32 := win0_1.stage (cfg0.slots t 1)
abbrev hs0_1 (t : Fin cfg0.N) : (ms0_1 t).IsWhole := hstage0_1 ((cfg0.slots t 1).cast nbuf0_1)

end Cert.KernelIdeal.Hand

end
-- ==== Proof.MaskRunA.lean ====
/-
  The accumulating body at the FIRST point: it clears the array of hot cells and then takes the maximum of the
  cleared array with the point's own cells. The run finds the pieces the array's buffer ends with.
-/
import proofs.«142496_j15977278341524_1_alg».proof.Proof.MaskDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the branch taken), on whole staging memrefs — the input's at its contents x0, the array's at
    anything — the body runs to the continuation holding the input's as it was and the array's buffer with the found
    pieces written. -/
noncomputable def maskRunA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) :
    { L1 : List (View.Piece (Elt F) S30x30 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__mask_kernel i arg1 harg1 arg2 harg2) K } := by
  refine ⟨?_, fun E K => ?run⟩
  case run =>
    simp only [cc0__mask_kernel_eq_skeleton]; unfold cc0__mask_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

end Cert.KernelIdeal.Hand

end
-- ==== Proof.MaskRunB.lean ====
/-
  The accumulating body at a LATER point: it takes the maximum of the array of hot cells, as the point before left
  it, with the point's own cells. The run finds the pieces the array's buffer ends with.
-/
import proofs.«142496_j15977278341524_1_alg».proof.Proof.MaskRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later point (the branch not taken), on whole staging memrefs — the input's at its contents x0, the array's at
    its running contents xo1 — the body runs to the continuation holding the input's as it was and the array's buffer
    with the found pieces written. -/
noncomputable def maskRunB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) :
    { L1 : List (View.Piece (Elt F) S30x30 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__mask_kernel i arg1 harg1 arg2 harg2) K } := by
  refine ⟨?_, fun E K => ?run⟩
  case run =>
    simp only [cc0__mask_kernel_eq_skeleton]; unfold cc0__mask_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

end Cert.KernelIdeal.Hand

end
-- ==== Proof.MaskBody.lean ====
/-
  The first region, point by point. What the array of hot cells holds after each grid point is a recursion on the
  point: at the first point the body's result over a cleared array, at every later point the body's result over what
  the point before left (the array's buffer is written back only after the last point). With it: the region's proof
  data and the body's obligation at every point.
-/
import proofs.«142496_j15977278341524_1_alg».proof.Proof.MaskRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first point's pieces tile the array's buffer, so they cover it. -/
theorem maskCoverA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) (y : S30x30.Idx) :
    ∃ pc ∈ (maskRunA c i arg1 harg1 arg2 harg2 hc0 x0).1, y ∈ pc.1.set :=
  View.cover_of_tiledL (maskRunA c i arg1 harg1 arg2 harg2 hc0 x0).1 S30x30.size (by sl_kernel_rfl) y

/-- What the first point leaves in the array's buffer: its pieces read back. -/
def maskOutA (c : Dev nD) (i : grid0.Coords) (arg1 : Memref sig .tc .vmem S2x32x32x768 .f32) (harg1 : arg1.IsWhole) (arg2 : Memref sig .tc .vmem S30x30 .f32) (harg2 : arg2.IsWhole) (hc0 : cond0_0 i)
    (x0 : Vec F S2x32x32x768 .f32) : Vec F S30x30 .f32 :=
  VO0_1.read (Elt F) (VO0_1.writes (Elt F) VO0_1.junk (maskRunA c i arg1 harg1 arg2 harg2 hc0 x0).1)

/-- A later point's pieces tile the array's buffer, so they cover it. -/
theorem maskCoverB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) (y : S30x30.Idx) :
    ∃ pc ∈ (maskRunB c i arg1 harg1 arg2 harg2 hc0 x0 xo1).1, y ∈ pc.1.set :=
  View.cover_of_tiledL (maskRunB c i arg1 harg1 arg2 harg2 hc0 x0 xo1).1 S30x30.size (by sl_kernel_rfl) y

/-- What a later point leaves in the array's buffer: its pieces read back. -/
def maskOutB (c : Dev nD) (i : grid0.Coords) (arg1 : Memref sig .tc .vmem S2x32x32x768 .f32) (harg1 : arg1.IsWhole) (arg2 : Memref sig .tc .vmem S30x30 .f32) (harg2 : arg2.IsWhole) (hc0 : ¬cond0_0 i)
    (x0 : Vec F S2x32x32x768 .f32) (xo1 : Vec F S30x30 .f32) : Vec F S30x30 .f32 :=
  VO0_1.read (Elt F) (VO0_1.writes (Elt F) VO0_1.junk (maskRunB c i arg1 harg1 arg2 harg2 hc0 x0 xo1).1)

/-- THE ACCUMULATION: what the array's buffer holds after the body at position n. -/
def maskAt (c : Dev nD) : (n : ℕ) → n < cfg0.N → Vec F S30x30 .f32
  | 0, hn => maskOutA c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 32 = 0 then
      maskOutA c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      maskOutB c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (maskAt c n (Nat.lt_of_succ_lt hn))

/-- The accumulation at the first point. -/
theorem maskAt_A (c : Dev nD) (t : Fin cfg0.N) (h0 : t.val % 32 = 0) :
    maskAt V c t.val t.isLt = maskOutA c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

/-- The accumulation at a later point: over what the point before left. -/
theorem maskAt_B (c : Dev nD) (t : Fin cfg0.N) (h0 : ¬t.val % 32 = 0) :
    maskAt V c t.val t.isLt = maskOutB c (grid0.coords t) (ms0_0 t) (hs0_0 t) (ms0_1 t) (hs0_1 t) (fun h => h0 ((hcond0_0 t).mp h)) (iblk0 V c 0 t) (maskAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point t the input's buffer at its block and the array of
    hot cells at the accumulation; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (maskAt V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (maskAt V c t.val t.isLt) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- At a later point the array's staging buffer holds what the body left at the point before: it is not written back
    in between. -/
theorem before0_1_B (c : Dev nD) (t : Fin cfg0.N) (h0 : ¬t.val % 32 = 0) (d) :
    (dat0 V c).before 1 t d = (maskAt V c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the closed form says which case the point is in; at a
    later point the array's memref holds what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 32 := lt_of_lt_of_eq t.isLt (show cfg0.N = 32 from N_0)
  by_cases h0 : t.val % 32 = 0
  · rw [maskAt_A V c t h0]
    unfold maskOutA
    iintro ⟨HΦ, Ho, ⟨%d0, H0⟩, ⟨%d1, H1⟩⟩
    iapply ((maskRunA c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (maskCoverA c _ _ _ _ _ _ _)
  · rw [maskAt_B V c t h0]
    simp only [before0_1_B V c t h0]
    unfold maskOutB
    iintro ⟨HΦ, Ho, ⟨%d0, H0⟩, ⟨%d1, H1⟩⟩
    iapply ((maskRunB c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (maskCoverB c _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.BlendBody.lean ====
import proofs.«142496_j15977278341524_1_alg».proof.Proof.Gen.KernelIdeal.Launch
import proofs.«142496_j15977278341524_1_alg».proof.Proof.Gen.KernelIdeal.Skeleton
import proofs.«142496_j15977278341524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffers' contents when the second pipelined call is entered
variable (V : (c : Dev nD) → (b : Ref sig .tc) → Buf (Elt F) ((c : Thread nD τ).loc b))

/-! ## The windows' blocks -/

/-- Window `w`'s block at point `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image block (window 0) is in its buffer at every point: it is brought in at every point, and the body
    leaves it as it found it. Stated for any proof data with the entry contents as arrays (`hA`) whose body keeps
    the block (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 30×30 mask (window 1) is brought in at the first point only; its block index is the same at every point, so
    at a later point the buffer still holds the block the body left there, which is this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two rectangles the body stores through -/

/-- The whole 1×32×32×768 block. -/
abbrev rWhole1 : Rect S1x32x32x768 := Rect.unit (s := S1x32x32x768) ![0, 0, 0, 0] S1x32x32x768.size inb_S1x32x32x768_S1x32x32x768_0_0_0_0
/-- Its interior: rows and columns 1 … 30, every channel. -/
abbrev rInt1 : Rect S1x32x32x768 := Rect.unit (s := S1x32x32x768) ![0, 1, 1, 0] S1x30x30x768.size inb_S1x32x32x768_S1x30x30x768_0_1_1_0

/-- Four zero offsets are the zero function, -/
theorem zeros4 : (![0, 0, 0, 0] : Fin 4 → ℕ) = fun _ => 0 := by
  funext a; fin_cases a <;> rfl

/-- and two likewise. -/
theorem zeros2 : (![0, 0] : Fin 2 → ℕ) = fun _ => 0 := by
  funext a; fin_cases a <;> rfl

/-! ## What the body leaves in the output block -/

/-- The output block after the body, from the two input blocks: `x0` copied over the whole block, then the blend
    written over the interior — as pieces, the LAST store first. It depends on the two blocks only. -/
def out1_2 (x0 : Vec F S1x32x32x768 .f32) (x1 : Vec F S30x30 .f32) : Vec F S1x32x32x768 .f32 :=
  View.canon [⟨rInt1, k1_pay2 x0 x1⟩, ⟨rWhole1, k1_pay1 x0⟩]

theorem out1_2_eq (x0 : Vec F S1x32x32x768 .f32) (x1 : Vec F S30x30 .f32) :
    out1_2 x0 x1 = View.canon [⟨rInt1, k1_pay2 x0 x1⟩, ⟨rWhole1, k1_pay1 x0⟩] := rfl

/-- The two stores cover the block, whatever they write: every index lies in the whole rectangle. -/
theorem cover1_2 (p0 : Vec F S1x30x30x768 .f32) (p1 : Vec F S1x32x32x768 .f32) (y : S1x32x32x768.Idx) :
    ∃ pc ∈ ([⟨rInt1, p0⟩, ⟨rWhole1, p1⟩] : List (View.Piece (Elt F) S1x32x32x768 .f32)), y ∈ pc.1.set :=
  ⟨⟨rWhole1, p1⟩, List.mem_cons_of_mem _ List.mem_cons_self,
    View.mem_set_unit_zero (S := S1x32x32x768) zeros4 inb_S1x32x32x768_S1x32x32x768_0_0_0_0 y⟩

/-! ## The body's triple -/

set_option maxHeartbeats 1000000 in
/-- The body on three whole buffers — the image block `x0`, the mask `x1`, the output's at anything — runs to the
    continuation with the inputs as they were and the output holding `out1_2 x0 x1`. It reads the two inputs whole
    (a read through the whole rectangle is the contents), reads the output twice without using what it reads, and
    stores twice: what the output held before does not matter because the two stores cover it. -/
theorem sound_kernel1 (c : Dev nD) (E : Set ℕ) (i : grid1.Coords)
    (arg1 : Memref sig .tc .vmem S1x32x32x768 .f32) (harg1 : arg1.IsWhole)
    (arg2 : Memref sig .tc .vmem S30x30 .f32) (harg2 : arg2.IsWhole)
    (arg3 : Memref sig .tc .vmem S1x32x32x768 .f32) (harg3 : arg3.IsWhole)
    (x0 : Vec F S1x32x32x768 .f32) (x1 : Vec F S30x30 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__blend_kernel i arg1 harg1 arg2 harg2 arg3 harg3) K := by
  simp only [cc1__blend_kernel_eq_skeleton]; unfold cc1__blend_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _ _)]
  simp only [View.readAt_eq_ld, View.ld_unit_zero (S := S1x32x32x768) zeros4, View.ld_unit_zero (S := S30x30) zeros2]
  rfl

/-! ## The pipeline's proof data -/

/-- The proof data of the second pipelined call on core `c`: the arrays at the entry contents `V`; after the body at
    point `t` each input's buffer at its block and the output's at `out1_2` of the two input blocks; the invariant
    that leaves the other scoped buffers and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  THE RUN of the whole program: a reshape on the host, the region that accumulates the array of hot cells, the region
  that blends, a reshape on the host. The contents of every buffer at each boundary are a fold from the launch memory:
  a host stretch applies its operations; a region replaces its windows' arrays by what its write-backs leave and keeps
  every other buffer. Every weakly fair execution terminates, and at the end EVERY unscoped buffer holds the last
  boundary's contents — in particular the result, and the argument as launched.
-/
import proofs.«142496_j15977278341524_1_alg».proof.Proof.MaskBody
import proofs.«142496_j15977278341524_1_alg».proof.Proof.BlendBody
import proofs.«142496_j15977278341524_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev cont0 : Dev nD → Valuation τ sig (Elt F) := fun c b => (s₀ m ρ).mem ((c : Dev nD), b)
/-- After the first host stretch: the first region's entry. -/
abbrev cont1 : Dev nD → Valuation τ sig (Elt F) := fun c => StableHlo.after hostOps0 (cont0 m ρ c)
/-- The same read at the TensorCore's references. -/
abbrev ent0 : (c : Dev nD) → (b : Ref sig .tc) → Buf (Elt F) ((c : Thread nD τ).loc b) := fun c b => cont1 m ρ c b
/-- At the first region's exit: its arrays at what the pipeline leaves, every other buffer as entered. -/
def cont2 (c : Dev nD) : Valuation τ sig (Elt F) :=
  Pipeline.withArrays spec0 c (cont1 m ρ c) fun w => (dat0 (ent0 m ρ) c).arrAt w cfg0.N
theorem cont2_arr (c : Dev nD) (w : Fin cfg0.W) :
    cont2 m ρ c (Proc.devRef .tc (Pipeline.arrRef spec0 w)) = (dat0 (ent0 m ρ) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m ρ c (Proc.devRef .tc b) = cont1 m ρ c (Proc.devRef .tc b) := by
  unfold cont2; exact Pipeline.withArrays_of_ne spec0 c _ _ b hb
/-- The same read at the TensorCore's references: the second region's entry. -/
abbrev ent1 : (c : Dev nD) → (b : Ref sig .tc) → Buf (Elt F) ((c : Thread nD τ).loc b) := fun c b => cont2 m ρ c b
theorem exitArr0 (c : Dev nD) (w : Fin cfg0.W) : (dat0 (ent0 m ρ) c).arrAt w cfg0.N = ent1 m ρ c (Pipeline.arrRef spec0 w) :=
  (cont2_arr m ρ c w).symm
theorem exitRest0 (c : Dev nD) : ∀ b, b ∉ Finset.univ.image (Pipeline.arrRef spec0) → ent1 m ρ c b = ent0 m ρ c b :=
  fun b hb => cont2_of_ne m ρ c b fun w e => hb (Finset.mem_image.mpr ⟨w, Finset.mem_univ _, e⟩)

/-- At the second region's exit: its arrays at what the pipeline leaves, every other buffer as entered. -/
def cont3 (c : Dev nD) : Valuation τ sig (Elt F) :=
  Pipeline.withArrays spec1 c (cont2 m ρ c) fun w => (dat1 (ent1 m ρ) c).arrAt w cfg1.N
theorem cont3_arr (c : Dev nD) (w : Fin cfg1.W) :
    cont3 m ρ c (Proc.devRef .tc (Pipeline.arrRef spec1 w)) = (dat1 (ent1 m ρ) c).arrAt w cfg1.N := by
  unfold cont3; exact Pipeline.withArrays_arr spec1 launch1.win.arr_inj c _ _ w
theorem cont3_of_ne (c : Dev nD) (b : Ref sig .tc) (hb : ∀ w, Pipeline.arrRef spec1 w ≠ b) :
    cont3 m ρ c (Proc.devRef .tc b) = cont2 m ρ c (Proc.devRef .tc b) := by
  unfold cont3; exact Pipeline.withArrays_of_ne spec1 c _ _ b hb
abbrev ext1 : (c : Dev nD) → (b : Ref sig .tc) → Buf (Elt F) ((c : Thread nD τ).loc b) := fun c b => cont3 m ρ c b
theorem exitArr1 (c : Dev nD) (w : Fin cfg1.W) : (dat1 (ent1 m ρ) c).arrAt w cfg1.N = ext1 m ρ c (Pipeline.arrRef spec1 w) :=
  (cont3_arr m ρ c w).symm
theorem exitRest1 (c : Dev nD) : ∀ b, b ∉ Finset.univ.image (Pipeline.arrRef spec1) → ext1 m ρ c b = ent1 m ρ c b :=
  fun b hb => cont3_of_ne m ρ c b fun w e => hb (Finset.mem_image.mpr ⟨w, Finset.mem_univ _, e⟩)

/-- After the last host stretch: the end. -/
abbrev cont4 : Dev nD → Valuation τ sig (Elt F) := fun c => StableHlo.after hostOps2 (cont3 m ρ c)

/-- The argument ends as launched: no host operation writes it and no region's window is on it. -/
theorem cont4_main_arg0 (c : Dev nD) : cont4 m ρ c (Proc.devRef .tc main_arg0) = m ((c : Thread nD τ).loc main_arg0) :=
  calc cont4 m ρ c (Proc.devRef .tc main_arg0)
    _ = cont3 m ρ c (Proc.devRef .tc main_arg0) := StableHlo.after_of_writes_sub hostOps2 _ hostOps2_writes (by decide)
    _ = cont2 m ρ c (Proc.devRef .tc main_arg0) := cont3_of_ne m ρ c main_arg0 (by decide)
    _ = cont1 m ρ c (Proc.devRef .tc main_arg0) := cont2_of_ne m ρ c main_arg0 (by decide)
    _ = cont0 m ρ c (Proc.devRef .tc main_arg0) := StableHlo.after_of_writes_sub hostOps0 _ hostOps0_writes (by decide)
    _ = m ((c : Thread nD τ).loc main_arg0) := rfl

/-! ## The proof data family and the thread state -/

/-- Every pipeline's proof data, each at its region's entry contents. -/
def regionData : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
/-- No core owes another anything: no level is assigned. -/
abbrev noPairs : GSem nD τ sig → Finset Unit := fun _ => ∅
abbrev noLevel : GSem nD τ sig → Unit → ℕ := fun _ _ => 0
/-- What rides beside the buffers through every segment: the generator register at some state and the core owing nothing. -/
abbrev rest (c : Dev nD) : sProp 𝕄 := iprop((∃ r, prngReg c r) ∗ ∃ W, owes (c : Thread nD τ) (0 : CellTallies nD τ sig Unit) W)
/-- A host stretch as a segment over the unscoped references. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev lastT (c : Dev nD) : sProp 𝕄 := iprop(StableHlo.held (c : Thread nD τ) (Pipeline.ucRefs τ sig) (cont4 m ρ c) ∗ ∃ r, prngReg c r)

/-! ## The regions as segments -/

set_option backward.isDefEq.respectTransparency.types false in
/-- The first region over the thread state: entered from every unscoped buffer at cont1, left at cont2. -/
def region0 : Pipeline.RegionSeg (pcfgs (F := F)) adm (regionData m ρ) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (ent0 m ρ) c).loose
  hwaits := Pipeline.hwaits_of_owed_zero _ _ _ _ noPairs noLevel 0 fun _ _ => rfl
  pre c := iprop(StableHlo.held (c : Thread nD τ) (Pipeline.ucRefs τ sig) (cont1 m ρ c) ∗ rest c)
  post c := iprop(StableHlo.held (c : Thread nD τ) (Pipeline.ucRefs τ sig) (cont2 m ρ c) ∗ rest c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (regionData m ρ) launch0.win launch0.arr_whole c
      ((regionData m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (regionData m ρ) ((regionData m ρ 0 c).share_full fun _ => rfl)
      (ent0 m ρ c) (ent1 m ρ c) ((regionData m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at cont2, left at cont3. -/
def region1 : Pipeline.RegionSeg (pcfgs (F := F)) adm (regionData m ρ) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (ent1 m ρ) c).loose
  hwaits := Pipeline.hwaits_of_owed_zero _ _ _ _ noPairs noLevel 1 fun _ _ => rfl
  pre c := iprop(StableHlo.held (c : Thread nD τ) (Pipeline.ucRefs τ sig) (cont2 m ρ c) ∗ rest c)
  post c := iprop(StableHlo.held (c : Thread nD τ) (Pipeline.ucRefs τ sig) (cont3 m ρ c) ∗ rest c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (regionData m ρ) launch1.win launch1.arr_whole c
      ((regionData m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (regionData m ρ) ((regionData m ρ 1 c).share_full fun _ => rfl)
      (ent1 m ρ c) (ext1 m ρ c) ((regionData m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev mainSegs : List (Pipeline.Seg (pcfgs (F := F)) adm (regionData m ρ) () defs₀ Variants.none noPairs noLevel) :=
  [ .host (hostSeg hostOps0 hostOps0_sub hostOps0_fresh (cont0 m ρ)),
    .region (region0 m ρ),
    .region (region1 m ρ),
    .host (hostSeg hostOps2 hostOps2_sub hostOps2_fresh (cont3 m ρ)) ]
/-- @main IS the run of the segments. -/
theorem main_is_run (c : Dev nD) : main (F := F) c = Pipeline.Seg.run (mainSegs m ρ) := (main_chain c).trans (by chain_rfl)

set_option backward.isDefEq.respectTransparency.types false in
/-- THE RUN: from any memory with zero counters every weakly fair execution of @main terminates, nothing faulting, and
    every final state has the result buffer at the last boundary's contents and the argument as launched. -/
theorem run_all : θ_run defs (onTc (τ := τ) (main (F := F))) ⟨m, fun _ => 0, ρ⟩ (fun r => ∀ c : Dev nD,
      r.2.mem ((c.tc : Thread nD τ).loc main_v3) = cont4 m ρ c (Proc.devRef .tc main_v3)
      ∧ r.2.mem ((c.tc : Thread nD τ).loc main_arg0) = m ((c.tc : Thread nD τ).loc main_arg0)) :=
  Pipeline.θ_run_regions_kit (pcfgs (F := F)) adm (regionData m ρ) () cellOf_inj emb₁ defs₀ Variants.none noPairs noLevel m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m ρ c) ∗ rest c)) (Tₙ := lastT m ρ)
    (hch := ⟨fun _ => .rfl, fun _ => .rfl, fun _ => .rfl, fun _ => .rfl, fun c => by
      show (iprop(StableHlo.held (c : Thread nD τ) (Pipeline.ucRefs τ sig) (cont4 m ρ c) ∗ rest c) : sProp 𝕄)
        ⊢ iprop(lastT m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (cont0 m ρ c)
        from Pipeline.unscopedBufs_held c (cont0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont4 m ρ c b)
    (hfin := fun c s' => by
      iintro ⟨⟨Hh, -⟩, HSI⟩
      unfold StableHlo.held
      imodintro
      iapply (pointsTo_read_all (Pipeline.ucRefs τ sig) (fun b => (((c : Thread nD τ)).1, b)) (cont4 m ρ c) s')
      isplitl [Hh] <;> iassumption)
    (hQ := fun s h c =>
      ⟨h c _ (mem_ucRefs main_v3 (by decide)), (h c _ (mem_ucRefs main_arg0 (by decide))).trans (cont4_main_arg0 m ρ c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_all m ρ)

end Cert.KernelIdeal.Hand

end
-- ==== Proof.MaskPieces.lean ====
/-
  The array of hot cells as a VALUE. At the first point the body leaves the maximum of a cleared array and the
  point's own cells; at a later point the maximum of what the point before left and the point's own cells: the array's
  buffer after point n is a chain of n + 1 such steps. The buffer is written back once, after the last point, and its
  block is the whole array: the array ends holding the chain after the last point.
-/
import proofs.«142496_j15977278341524_1_alg».proof.Proof.MaskBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem unitOffs2 : (![0, 0] : Fin 2 → Nat) = fun _ => 0 := funext fun a => by fin_cases a <;> rfl
theorem unitOffs4 : (![0, 0, 0, 0] : Fin 4 → Nat) = fun _ => 0 := funext fun a => by fin_cases a <;> rfl

/-- A later point leaves the step over what the buffer held. -/
theorem maskOutB_eq (c : Dev nD) (i : grid0.Coords) (a1 : Memref sig .tc .vmem S2x32x32x768 .f32) (h1 : a1.IsWhole)
    (a2 : Memref sig .tc .vmem S30x30 .f32) (h2 : a2.IsWhole) (hc : ¬cond0_0 i) (x : Vec F S2x32x32x768 .f32) (xo : Vec F S30x30 .f32) :
    maskOutB c i a1 h1 a2 h2 hc x xo = k0_pay2 x xo := by
  unfold maskOutB
  rw [View.read_writes_eq_canon _ _ _ (maskCoverB c i a1 h1 a2 h2 hc x xo)]
  unfold maskRunB
  dsimp only
  rw [View.canon_unit_zero unitOffs2]
  simp only [View.readAt_eq_ld, h1.read_unread, h2.read_unread, View.ld_unit_zero (S := S2x32x32x768) unitOffs4, View.ld_unit_zero (S := S30x30) unitOffs2]

/-- The first point leaves the step over the cleared array. -/
theorem maskOutA_eq (c : Dev nD) (i : grid0.Coords) (a1 : Memref sig .tc .vmem S2x32x32x768 .f32) (h1 : a1.IsWhole)
    (a2 : Memref sig .tc .vmem S30x30 .f32) (h2 : a2.IsWhole) (hc : cond0_0 i) (x : Vec F S2x32x32x768 .f32) :
    maskOutA c i a1 h1 a2 h2 hc x = k0_pay2 x (k0_pay1 (F := F)) := by
  unfold maskOutA
  rw [View.read_writes_eq_canon _ _ _ (maskCoverA c i a1 h1 a2 h2 hc x)]
  unfold maskRunA
  dsimp only
  sl_unfold_words
  rw [View.canon_cons_unit_zero (S := S30x30) unitOffs2, View.readCov_unit_zero (S := S30x30) _ unitOffs2]
  simp only [View.readAt_eq_ld, h1.read_unread, View.ld_unit_zero (S := S2x32x32x768) unitOffs4, View.ld_unit_zero (S := S30x30) unitOffs2]

/-- The chain of steps after point n. -/
def maskChain (c : Dev nD) : (n : ℕ) → n < cfg0.N → Vec F S30x30 .f32
  | 0, h => k0_pay2 (iblk0 V c 0 ⟨0, h⟩) (k0_pay1 (F := F))
  | n + 1, h => k0_pay2 (iblk0 V c 0 ⟨n + 1, h⟩) (maskChain c n (Nat.lt_of_succ_lt h))

/-- What the array's buffer holds after point n is the chain: by induction on the point. -/
theorem maskAt_eq (c : Dev nD) : ∀ (n : ℕ) (h : n < cfg0.N), maskAt V c n h = maskChain V c n h
  | 0, h => (maskAt_A V c ⟨0, h⟩ rfl).trans (maskOutA_eq ..)
  | n + 1, h => by
    have hN : cfg0.N = 32 := N_0
    have hB : ¬(⟨n + 1, h⟩ : Fin cfg0.N).val % 32 = 0 := by dsimp only; omega
    rw [maskAt_B V c ⟨n + 1, h⟩ hB, maskOutB_eq]
    show k0_pay2 _ (maskAt V c n _) = k0_pay2 _ (maskChain V c n _)
    rw [maskAt_eq c n]

/-- The last point. -/
abbrev lastPt : Fin cfg0.N := ⟨31, by rw [show cfg0.N = 32 from N_0]; decide⟩

/-- The chain after the last point, as contents of the array of hot cells. -/
abbrev maskResult (c : Dev nD) : Buf (Elt F) ((c : Thread nD τ).loc main_v1) := maskChain V c 31 (by rw [show cfg0.N = 32 from N_0]; decide)

/-- The one write-back, after the last point, writes it: the block at offset (0, 0) of the [30, 30] array is the array. -/
theorem mask_flushed (c : Dev nD) (t : Fin cfg0.N) (hf : (cfg0.win 1).flush t = true) :
    (dat0 V c).flushed 1 t = ((cfg0.win 1).blk t).view.read (Elt F) (maskResult V c) := by
  have hN : cfg0.N = 32 := N_0
  have h31 : t.val = 31 := by have := (flush0_1 t).mp hf; have := t.isLt; omega
  obtain rfl : t = lastPt := Fin.ext h31
  show (cfg0.win 1).cut (grid0.coords lastPt) ((dat0 V c).after 1 lastPt) = _
  rw [after0_1, maskAt_eq]
  have hz' : (fun a => win0_1.index lastPt a * main_v1.ty.shape.size a) = fun _ => 0 := funext fun a => by fin_cases a <;> decide
  exact (Memref.read_access_unit_zero (Elt F) main_v1 hz' (fun a => by rw [congrFun hz' a]; simp) (maskResult V c)).symm

/-- So the array ends holding the chain after the last point. -/
theorem mask_final (c : Dev nD) : (dat0 V c).arrAt 1 cfg0.N = maskResult V c :=
  (dat0 V c).arrAt_eq_of_cover 1 (maskResult V c) (mask_flushed V c) fun i =>
    ⟨lastPt, (flush0_1 lastPt).mpr rfl, by
      show i ∈ ((View.whole main_v1).slice (win0_1.rect lastPt)).set
      rw [View.set_slice_whole, Rect.mem_set_unit]
      intro a
      have h0 : (i 0 : Nat) < 30 := (i 0).isLt
      have h1 : (i 1 : Nat) < 30 := (i 1).isLt
      match a with
      | ⟨0, _⟩ => show win0_1.index lastPt 0 * win0_1.size 0 ≤ (i 0 : Nat) ∧ (i 0 : Nat) < win0_1.index lastPt 0 * win0_1.size 0 + win0_1.xsize (grid0.coords lastPt) 0
                  rw [show win0_1.index lastPt 0 * win0_1.size 0 = 0 from by decide +kernel, show win0_1.xsize (grid0.coords lastPt) 0 = 30 from by decide +kernel]; omega
      | ⟨1, _⟩ => show win0_1.index lastPt 1 * win0_1.size 1 ≤ (i 1 : Nat) ∧ (i 1 : Nat) < win0_1.index lastPt 1 * win0_1.size 1 + win0_1.xsize (grid0.coords lastPt) 1
                  rw [show win0_1.index lastPt 1 * win0_1.size 1 = 0 from by decide +kernel, show win0_1.xsize (grid0.coords lastPt) 1 = 30 from by decide +kernel]; omega⟩

end Cert.KernelIdeal.Hand

end
-- ==== Proof.Spec.lean ====
/-
  THE MATHEMATICS both programs compute, stated once over the extended reals and over no program.

  The input is a batch of 64 grids of 32 × 32 patches, each patch a row of 768 features: an array
  X[b, h, w, d]. For two neighbouring patches the ANOMALY is the Euclidean norm of their difference,
  sqrt (∑ d, (X[b,h,w+1,d] − X[b,h,w,d])²) horizontally and the same vertically. An interior cell
  (1+i, 1+j), i, j < 30, is HOT when, for SOME batch element, one of its four edges (to the left, to
  the right, above, below) has anomaly above 1. Every interior patch of a hot cell is replaced, in every
  batch element, by the blend  ½·centre + ½·(¼·(sum of its four neighbours)); every other patch is kept.

  One program keeps the hot cells as a 0/1 array M and writes centre + M·(blend − centre); the other selects
  between blend and centre. On finite inputs these agree: centre + 1·(blend − centre) = blend and
  centre + 0·(blend − centre) = centre are identities of the REALS (at an infinite centre the left sides
  are −∞), which is where finiteness of the input is used.
-/
import Idealize.ShloMosaic.PureOps.Ideal
import Idealize.ShloMosaic.Lib.ValueIdx

noncomputable section

open scoped BigOperators

namespace Cert.Spec

open Idealize.ShloMosaic Idealize.ShloMosaic.ValueIdx

/-- The batch of patch grids, [64, 32, 32, 768]. -/
abbrev SX : Shape := ⟨4, ![64, 32, 32, 768]⟩
/-- The interior cells, [30, 30]. -/
abbrev SM : Shape := ⟨2, ![30, 30]⟩

/-- The threshold 1.0, the weight 0.5 and the factor 0.25, each as the word both programs spell. -/
def one : EReal := Ideal.ofBits .f32 0x3F800000#32
def half : EReal := Ideal.ofBits .f32 0x3F000000#32
def quarter : EReal := Ideal.ofBits .f32 0x3E800000#32

theorem half_eq : half = (((1 / 2 : ℝ)) : EReal) := by
  unfold half; simp [Ideal.ofBits, Ideal.ieee, -EReal.coe_mul]; norm_num
theorem quarter_eq : quarter = (((1 / 4 : ℝ)) : EReal) := by
  unfold quarter; simp [Ideal.ofBits, Ideal.ieee, -EReal.coe_mul]; norm_num

section Edges

/- The edges' anomalies are stated for a batch of any extent B: the whole input has B = 64, one grid point of the
   first region sees a block of B = 2 grids. -/
variable {B : ℕ} (X : (⟨4, ![B, 32, 32, 768]⟩ : Shape).Idx → EReal)

/-- The squared distance between patch (h, w+1) and patch (h, w) of grid b. -/
def sqH (b : Fin B) (h : Fin 32) (w : Fin 31) : EReal :=
  ∑ d : Fin 768,
    (X (ix4 b h (⟨1 + w.val, by have := w.isLt; omega⟩ : Fin 32) d) - X (ix4 b h (⟨w.val, by have := w.isLt; omega⟩ : Fin 32) d))
      * (X (ix4 b h (⟨1 + w.val, by have := w.isLt; omega⟩ : Fin 32) d) - X (ix4 b h (⟨w.val, by have := w.isLt; omega⟩ : Fin 32) d))

/-- The squared distance between patch (h+1, w) and patch (h, w) of grid b. -/
def sqV (b : Fin B) (h : Fin 31) (w : Fin 32) : EReal :=
  ∑ d : Fin 768,
    (X (ix4 b (⟨1 + h.val, by have := h.isLt; omega⟩ : Fin 32) w d) - X (ix4 b (⟨h.val, by have := h.isLt; omega⟩ : Fin 32) w d))
      * (X (ix4 b (⟨1 + h.val, by have := h.isLt; omega⟩ : Fin 32) w d) - X (ix4 b (⟨h.val, by have := h.isLt; omega⟩ : Fin 32) w d))

/-- The horizontal edge (h, w)–(h, w+1) of grid b is anomalous: its length exceeds the threshold. -/
def hotH (b : Fin B) (h : Fin 32) (w : Fin 31) : Prop := one < Ideal.sqrt (sqH X b h w)
/-- The vertical edge (h, w)–(h+1, w) of grid b is anomalous. -/
def hotV (b : Fin B) (h : Fin 31) (w : Fin 32) : Prop := one < Ideal.sqrt (sqV X b h w)

/-- In grid b, one of the four edges at the interior cell (1+i, 1+j) is anomalous: left, right, above, below. -/
def hot (b : Fin B) (i j : Fin 30) : Prop :=
  ((hotH X b (⟨1 + i.val, by have := i.isLt; omega⟩ : Fin 32) (⟨j.val, by have := j.isLt; omega⟩ : Fin 31)
      ∨ hotH X b (⟨1 + i.val, by have := i.isLt; omega⟩ : Fin 32) (⟨1 + j.val, by have := j.isLt; omega⟩ : Fin 31))
    ∨ hotV X b (⟨i.val, by have := i.isLt; omega⟩ : Fin 31) (⟨1 + j.val, by have := j.isLt; omega⟩ : Fin 32))
  ∨ hotV X b (⟨1 + i.val, by have := i.isLt; omega⟩ : Fin 31) (⟨1 + j.val, by have := j.isLt; omega⟩ : Fin 32)

end Edges

variable (X : SX.Idx → EReal)

/-- The interior cell (1+i, 1+j) is hot: some grid of the batch has an anomalous edge there. -/
def anyHot (i j : Fin 30) : Prop := ∃ b : Fin 64, hot X b i j

open Classical in
/-- The hot cells as a 0/1 array. -/
def maskF : SM.Idx → EReal := fun p =>
  if anyHot X (⟨(p 0).val, (p 0).isLt⟩ : Fin 30) (⟨(p 1).val, (p 1).isLt⟩ : Fin 30) then 1 else 0

/-- The centre patch of the interior cell (1+i, 1+j), feature d, of grid b. -/
def ctr (b : Fin 64) (i j : Fin 30) (d : Fin 768) : EReal :=
  X (ix4 b (⟨1 + i.val, by have := i.isLt; omega⟩ : Fin 32) (⟨1 + j.val, by have := j.isLt; omega⟩ : Fin 32) d)

/-- The sum of its four neighbours: above, below, left, right, added in that order. -/
def nbr (b : Fin 64) (i j : Fin 30) (d : Fin 768) : EReal :=
  ((X (ix4 b (⟨i.val, by have := i.isLt; omega⟩ : Fin 32) (⟨1 + j.val, by have := j.isLt; omega⟩ : Fin 32) d)
      + X (ix4 b (⟨2 + i.val, by have := i.isLt; omega⟩ : Fin 32) (⟨1 + j.val, by have := j.isLt; omega⟩ : Fin 32) d))
    + X (ix4 b (⟨1 + i.val, by have := i.isLt; omega⟩ : Fin 32) (⟨j.val, by have := j.isLt; omega⟩ : Fin 32) d))
  + X (ix4 b (⟨1 + i.val, by have := i.isLt; omega⟩ : Fin 32) (⟨2 + j.val, by have := j.isLt; omega⟩ : Fin 32) d)

/-- The blend: half the centre plus half the neighbours' average. -/
def bld (b : Fin 64) (i j : Fin 30) (d : Fin 768) : EReal :=
  half * ctr X b i j d + half * (nbr X b i j d * quarter)

/-- The index lies in the interior: rows and columns 1 to 30. -/
def inner (q : SX.Idx) : Prop := (1 ≤ (q 1).val ∧ (q 1).val ≤ 30) ∧ (1 ≤ (q 2).val ∧ (q 2).val ≤ 30)

instance (q : SX.Idx) : Decidable (inner q) := by unfold inner; infer_instance

/-- The coordinates of an index: the grid, the feature, and — inside — the interior cell's row and column. -/
def bOf (q : SX.Idx) : Fin 64 := ⟨(q 0).val, (q 0).isLt⟩
def dOf (q : SX.Idx) : Fin 768 := ⟨(q 3).val, (q 3).isLt⟩
def iOf (q : SX.Idx) (hq : inner q) : Fin 30 := ⟨(q 1).val - 1, by have := hq.1; omega⟩
def jOf (q : SX.Idx) (hq : inner q) : Fin 30 := ⟨(q 2).val - 1, by have := hq.2; omega⟩

/-- The result written with a 0/1 array M of cells: centre + M · (blend − centre) inside, the input outside. -/
def outK (M : SM.Idx → EReal) : SX.Idx → EReal := fun q =>
  if hq : inner q then
    ctr X (bOf q) (iOf q hq) (jOf q hq) (dOf q)
      + M (ix2 (iOf q hq) (jOf q hq)) * (bld X (bOf q) (iOf q hq) (jOf q hq) (dOf q) - ctr X (bOf q) (iOf q hq) (jOf q hq) (dOf q))
  else X q

open Classical in
/-- The result written as a choice: the blend at a hot interior cell, the input everywhere else. -/
def outR : SX.Idx → EReal := fun q =>
  if hq : inner q then
    if anyHot X (iOf q hq) (jOf q hq) then bld X (bOf q) (iOf q hq) (jOf q hq) (dOf q)
    else ctr X (bOf q) (iOf q hq) (jOf q hq) (dOf q)
  else X q

/-- The 0/1 array at a cell. -/
theorem maskF_ix2 (i j : Fin 30) : maskF X (ix2 i j) = (open Classical in if anyHot X i j then (1 : EReal) else 0) := rfl

/-- On a finite input the two forms are one function: with the centre c and the blend both REAL,
    c + 1·(blend − c) = blend and c + 0·(blend − c) = c. -/
theorem outK_maskF (hX : ∀ q, ∃ r : ℝ, X q = (r : EReal)) : outK X (maskF X) = outR X := by
  funext q
  unfold outK outR
  by_cases hq : inner q
  · rw [dif_pos hq, dif_pos hq, maskF_ix2]
    generalize iOf q hq = i
    generalize jOf q hq = j
    generalize bOf q = b
    generalize dOf q = d
    unfold bld nbr ctr
    obtain ⟨c, hc⟩ := hX (ix4 b (⟨1 + i.val, by have := i.isLt; omega⟩ : Fin 32) (⟨1 + j.val, by have := j.isLt; omega⟩ : Fin 32) d)
    obtain ⟨n, hn⟩ := hX (ix4 b (⟨i.val, by have := i.isLt; omega⟩ : Fin 32) (⟨1 + j.val, by have := j.isLt; omega⟩ : Fin 32) d)
    obtain ⟨s, hs⟩ := hX (ix4 b (⟨2 + i.val, by have := i.isLt; omega⟩ : Fin 32) (⟨1 + j.val, by have := j.isLt; omega⟩ : Fin 32) d)
    obtain ⟨w, hw⟩ := hX (ix4 b (⟨1 + i.val, by have := i.isLt; omega⟩ : Fin 32) (⟨j.val, by have := j.isLt; omega⟩ : Fin 32) d)
    obtain ⟨e, he⟩ := hX (ix4 b (⟨1 + i.val, by have := i.isLt; omega⟩ : Fin 32) (⟨2 + j.val, by have := j.isLt; omega⟩ : Fin 32) d)
    simp only [hc, hn, hs, hw, he, half_eq, quarter_eq]
    by_cases ha : anyHot X i j
    · rw [if_pos ha, if_pos ha]
      simp only [← EReal.coe_add, ← EReal.coe_mul, ← EReal.coe_sub, one_mul]
      congr 1; ring
    · rw [if_neg ha, if_neg ha]
      simp only [← EReal.coe_add, ← EReal.coe_mul, ← EReal.coe_sub, zero_mul, add_zero]
  · rw [dif_neg hq, dif_neg hq]

end Cert.Spec

end
-- ==== Proof.MaskBlocks.lean ====
/-
  Which grids a point of the first region sees: its input block at point t is the pair of grids 2t and 2t + 1 of the
  batch, so an edge of the block's grid b is the same edge of the batch's grid 2t + b.
-/
import proofs.«142496_j15977278341524_1_alg».proof.Proof.MaskDefs
import proofs.«142496_j15977278341524_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The input window's block index at point t is (t, 0, 0, 0). -/
theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- Grids 2t and 2t + 1 of a batch of 64. -/
def gridPair (X : Cert.Spec.SX.Idx → EReal) (t : ℕ) (ht : t < 32) : (⟨4, ![2, 32, 32, 768]⟩ : Shape).Idx → EReal := fun y =>
  X (ix4 (⟨2 * t + (y 0).val, by have h : (y 0).val < 2 := (y 0).isLt; omega⟩ : Fin 64) (⟨(y 1).val, (y 1).isLt⟩ : Fin 32)
    (⟨(y 2).val, (y 2).isLt⟩ : Fin 32) (⟨(y 3).val, (y 3).isLt⟩ : Fin 768))

theorem lt32 (t : Fin cfg0.N) : t.val < 32 := lt_of_lt_of_eq t.isLt (show cfg0.N = 32 from N_0)

/-- The block the first region reads at point t is that pair of grids of the region's input array. -/
theorem iblk0_eq (c : Dev nD) (t : Fin cfg0.N) :
    (iblk0 V c 0 t : S2x32x32x768.Idx → EReal) = gridPair (V c main_v0) t.val (lt32 t) := by
  funext y
  obtain ⟨e0, e1, e2, e3⟩ := idx_facts0 t
  show V c main_v0 (((cfg0.win 0).blk t).view.emb y) = _
  unfold gridPair
  refine congrArg (V c main_v0) ?_
  funext a; apply Fin.ext
  match a with
  | ⟨0, _⟩ => show win0_0.index t (0 : Fin 4) * 2 + 1 * (y 0).val = 2 * t.val + (y 0).val; omega
  | ⟨1, _⟩ => show win0_0.index t (1 : Fin 4) * 32 + 1 * (y 1).val = (y 1).val; omega
  | ⟨2, _⟩ => show win0_0.index t (2 : Fin 4) * 32 + 1 * (y 2).val = (y 2).val; omega
  | ⟨3, _⟩ => show win0_0.index t (3 : Fin 4) * 768 + 1 * (y 3).val = (y 3).val; omega

/-- An anomalous edge of the pair's grid b is the anomalous edge of the batch's grid 2t + b. -/
theorem hot_gridPair (X : Cert.Spec.SX.Idx → EReal) (t : ℕ) (ht : t < 32) (b : Fin 2) (i j : Fin 30) :
    Cert.Spec.hot (B := 2) (gridPair X t ht) b i j ↔ Cert.Spec.hot (B := 64) X (⟨2 * t + b.val, by have := b.isLt; omega⟩ : Fin 64) i j :=
  Iff.rfl

end Cert.KernelIdeal.Hand

end
-- ==== Proof.MaskPayload.lean ====
/-
  THE FIRST REGION'S ARITHMETIC AT AN INDEX, over the extended reals.

  A block holds 2 grids of 32 × 32 patches with 768 features. The horizontal (vertical) edge lengths are the square
  roots of the sums, over the features, of the squared differences of neighbouring patches; an edge is anomalous when
  its length exceeds 1. The 0/1 indicators of the anomalous edges are maximised over the two grids, starting from -∞:
  that maximum is the indicator that SOME grid has the edge anomalous. At the interior cell (1+i, 1+j) the maximum of
  the four edges' indicators — left and right, above and below — is the indicator that some grid has an anomalous edge
  at the cell (`blockHot`), and the region keeps the maximum of that with its running array (`pay2_apply`). The
  running array starts from the constant 0 (`pay1_apply`).
-/
import proofs.«142496_j15977278341524_1_alg».proof.Proof.Gen.KernelIdeal.Skeleton
import proofs.«142496_j15977278341524_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.MaskPayload

open Cert.KernelIdeal Cert.KernelIdeal.Gen Idealize.ShloMosaic Idealize.ShloMosaic.ValueIdx

/-! ## Words and small facts on the extended reals -/

/-- The accumulator of the maximum over the grids, the word of -∞, is the bottom of the extended reals. -/
theorem negInf_eq : Ideal.ofBits .f32 0xFF800000#32 = (⊥ : EReal) := by simp [Ideal.ofBits, Ideal.ieee]

/-- The zero word is the extended real 0. -/
theorem zero_eq : Ideal.ofBits .f32 0x00000000#32 = (0 : EReal) := Ideal.ofBits_zero_f32

/-- A fold of max over the two grids, from c, is max of c and the two values. -/
theorem fold_max_two (f : Fin 2 → EReal) (c : EReal) :
    (Finset.univ : Finset (Fin 2)).fold max c f = max c (max (f 0) (f 1)) := by
  rw [show (Finset.univ : Finset (Fin 2)) = {0, 1} from by decide, Finset.fold_insert (by decide), Finset.fold_singleton]
  rw [max_comm (f 1) c, ← max_assoc, max_comm (f 0) c, max_assoc]

/-- The comparison "a exceeds 1.0", widened to 32 bits and read as a signed integer, is the 0/1 indicator of 1 < a. -/
theorem indicator_eq (a : EReal) [Decidable (Cert.Spec.one < a)] :
    FloatOps.sitofp (F := Ideal) .f32
        ((FloatOps.cmpf (F := Ideal) (φ := .f32) .ogt a (FloatOps.ofBits (F := Ideal) .f32 0x3F800000#32)).setWidth 32)
      = if Cert.Spec.one < a then (1 : EReal) else 0 := by
  show ((((Ideal.cmp .ogt a (Ideal.ofBits .f32 0x3F800000#32)).setWidth 32).toInt : ℝ) : EReal) = _
  unfold Ideal.cmp
  by_cases h : Cert.Spec.one < a
  · have h' : Ideal.ofBits .f32 0x3F800000#32 < a := h
    simp [h, h']
  · have h' : ¬ Ideal.ofBits .f32 0x3F800000#32 < a := h
    simp [h, h']

/-- The maximum of two 0/1 indicators is the indicator of the disjunction. -/
theorem max_indicator (P Q : Prop) [Decidable P] [Decidable Q] [Decidable (P ∨ Q)] :
    max (if P then (1 : EReal) else 0) (if Q then (1 : EReal) else 0) = if P ∨ Q then (1 : EReal) else 0 := by
  by_cases hP : P <;> by_cases hQ : Q <;> simp [hP, hQ]

/-- The maximum of -∞ and the indicators over the two grids is the indicator of "some grid". -/
theorem max_bot_indicator_two (P : Fin 2 → Prop) [DecidablePred P] [Decidable (∃ b, P b)] :
    max (⊥ : EReal) (max (if P 0 then (1 : EReal) else 0) (if P 1 then (1 : EReal) else 0)) = if ∃ b, P b then (1 : EReal) else 0 := by
  rw [max_bot_left, max_indicator]
  exact if_congr Fin.exists_fin_two.symm rfl rfl

/-- An `if` depends on its condition only up to equivalence, whatever decides it. -/
theorem ite_of_iff {P Q : Prop} (hP : Decidable P) (hQ : Decidable Q) (h : P ↔ Q) (a b : EReal) :
    @ite EReal P hP a b = @ite EReal Q hQ a b := by
  by_cases hp : P
  · rw [if_pos hp, if_pos (h.mp hp)]
  · rw [if_neg hp, if_neg (fun hq => hp (h.mpr hq))]

/-! ## The anomaly vectors at an index -/

/-- Inserting the feature d into the horizontal-edge index (b, h, w) gives (b, h, w, d). -/
theorem liftH_eq (hr : S2x32x31x768.Reduces [3] S2x32x31) (b : Fin 2) (h : Fin 32) (w : Fin 31) (d : Fin 768) :
    hr.lift (ix3 b h w) d = ix4 b h w d := by
  funext a; refine Fin.ext ?_
  match a with | ⟨0, _⟩ => rfl | ⟨1, _⟩ => rfl | ⟨2, _⟩ => rfl | ⟨3, _⟩ => rfl

/-- Inserting the feature d into the vertical-edge index (b, h, w) gives (b, h, w, d). -/
theorem liftV_eq (hr : S2x31x32x768.Reduces [3] S2x31x32) (b : Fin 2) (h : Fin 31) (w : Fin 32) (d : Fin 768) :
    hr.lift (ix3 b h w) d = ix4 b h w d := by
  funext a; refine Fin.ext ?_
  match a with | ⟨0, _⟩ => rfl | ⟨1, _⟩ => rfl | ⟨2, _⟩ => rfl | ⟨3, _⟩ => rfl

/-- The sum over the features of the squared horizontal neighbour differences, at the edge (b, h, w), is the squared
    distance between patch (h, w+1) and patch (h, w) of grid b. -/
theorem sumH_apply (x : FVec Ideal S2x32x32x768 .f32)
    (hs1 : S2x32x32x768.Slices ![0, 0, 1, 0] S2x32x31x768) (hs0 : S2x32x32x768.Slices ![0, 0, 0, 0] S2x32x31x768)
    (hr : S2x32x31x768.Reduces [3] S2x32x31) (hφ : FKind.Formats .f32)
    (hacc : (0x00000000#32 : BitVec 32) = FKind.add.neutral .f32 hφ) (b : Fin 2) (h : Fin 32) (w : Fin 31) :
    multiReduction (F := Ideal) .add [3] S2x32x31
        (mulf (subf (extractStridedSlice S2x32x31x768 ![0, 0, 1, 0] x hs1) (extractStridedSlice S2x32x31x768 ![0, 0, 0, 0] x hs0))
              (subf (extractStridedSlice S2x32x31x768 ![0, 0, 1, 0] x hs1) (extractStridedSlice S2x32x31x768 ![0, 0, 0, 0] x hs0)))
        0x00000000#32 hr hφ hacc (ix3 b h w)
      = Cert.Spec.sqH (B := 2) x b h w := by
  refine (Ideal.multiReduction_add_single _ _ hr hφ hacc (ix3 b h w)).trans ?_
  unfold Cert.Spec.sqH
  refine Finset.sum_congr rfl fun (d : Fin 768) _ => ?_
  rw [liftH_eq hr b h w d, mulf_apply, subf_apply,
    extractStridedSlice_apply ![0, 0, 1, 0] x hs1 (ix4 b h w d)
      (ix4 b h (⟨1 + w.val, by have := w.isLt; omega⟩ : Fin 32) d) (fun a => by
        match a with
        | ⟨0, _⟩ => exact (Nat.zero_add _).symm
        | ⟨1, _⟩ => exact (Nat.zero_add _).symm
        | ⟨2, _⟩ => rfl
        | ⟨3, _⟩ => exact (Nat.zero_add _).symm),
    extractStridedSlice_apply ![0, 0, 0, 0] x hs0 (ix4 b h w d)
      (ix4 b h (⟨w.val, by have := w.isLt; omega⟩ : Fin 32) d) (fun a => by
        match a with
        | ⟨0, _⟩ => exact (Nat.zero_add _).symm
        | ⟨1, _⟩ => exact (Nat.zero_add _).symm
        | ⟨2, _⟩ => exact (Nat.zero_add _).symm
        | ⟨3, _⟩ => exact (Nat.zero_add _).symm)]

/-- The sum over the features of the squared vertical neighbour differences, at the edge (b, h, w), is the squared
    distance between patch (h+1, w) and patch (h, w) of grid b. -/
theorem sumV_apply (x : FVec Ideal S2x32x32x768 .f32)
    (hs1 : S2x32x32x768.Slices ![0, 1, 0, 0] S2x31x32x768) (hs0 : S2x32x32x768.Slices ![0, 0, 0, 0] S2x31x32x768)
    (hr : S2x31x32x768.Reduces [3] S2x31x32) (hφ : FKind.Formats .f32)
    (hacc : (0x00000000#32 : BitVec 32) = FKind.add.neutral .f32 hφ) (b : Fin 2) (h : Fin 31) (w : Fin 32) :
    multiReduction (F := Ideal) .add [3] S2x31x32
        (mulf (subf (extractStridedSlice S2x31x32x768 ![0, 1, 0, 0] x hs1) (extractStridedSlice S2x31x32x768 ![0, 0, 0, 0] x hs0))
              (subf (extractStridedSlice S2x31x32x768 ![0, 1, 0, 0] x hs1) (extractStridedSlice S2x31x32x768 ![0, 0, 0, 0] x hs0)))
        0x00000000#32 hr hφ hacc (ix3 b h w)
      = Cert.Spec.sqV (B := 2) x b h w := by
  refine (Ideal.multiReduction_add_single _ _ hr hφ hacc (ix3 b h w)).trans ?_
  unfold Cert.Spec.sqV
  refine Finset.sum_congr rfl fun (d : Fin 768) _ => ?_
  rw [liftV_eq hr b h w d, mulf_apply, subf_apply,
    extractStridedSlice_apply ![0, 1, 0, 0] x hs1 (ix4 b h w d)
      (ix4 b (⟨1 + h.val, by have := h.isLt; omega⟩ : Fin 32) w d) (fun a => by
        match a with
        | ⟨0, _⟩ => exact (Nat.zero_add _).symm
        | ⟨1, _⟩ => rfl
        | ⟨2, _⟩ => exact (Nat.zero_add _).symm
        | ⟨3, _⟩ => exact (Nat.zero_add _).symm),
    extractStridedSlice_apply ![0, 0, 0, 0] x hs0 (ix4 b h w d)
      (ix4 b (⟨h.val, by have := h.isLt; omega⟩ : Fin 32) w d) (fun a => by
        match a with
        | ⟨0, _⟩ => exact (Nat.zero_add _).symm
        | ⟨1, _⟩ => exact (Nat.zero_add _).symm
        | ⟨2, _⟩ => exact (Nat.zero_add _).symm
        | ⟨3, _⟩ => exact (Nat.zero_add _).symm)]

/-! ## The maximum over the two grids of the edge indicators -/

/-- Inserting the grid b into the edge index (h, w) gives (b, h, w). -/
theorem liftG_eq {n1 n2 : ℕ} (hr : (⟨3, ![2, n1, n2]⟩ : Shape).Reduces [0] ⟨2, ![n1, n2]⟩) (h : Fin n1) (w : Fin n2) (b : Fin 2) :
    hr.lift (ix2 h w) b = ix3 b h w := by
  funext a; refine Fin.ext ?_
  match a with | ⟨0, _⟩ => rfl | ⟨1, _⟩ => rfl | ⟨2, _⟩ => rfl

/-- The maximum over the two grids, from -∞, of a vector that reads f b at (b, h, w) is max (f 0) (f 1) at (h, w). -/
theorem maxRed_two {n1 n2 : ℕ} (src : FVec Ideal ⟨3, ![2, n1, n2]⟩ .f32)
    (hr : (⟨3, ![2, n1, n2]⟩ : Shape).Reduces [0] ⟨2, ![n1, n2]⟩) (hφ : FKind.Formats .f32)
    (hacc : (0xFF800000#32 : BitVec 32) = FKind.maximumf.neutral .f32 hφ) (h : Fin n1) (w : Fin n2)
    (f : Fin 2 → EReal) (hf : ∀ b : Fin 2, src (ix3 b h w) = f b) :
    multiReduction (F := Ideal) .maximumf [0] ⟨2, ![n1, n2]⟩ src 0xFF800000#32 hr hφ hacc (ix2 h w)
      = max (⊥ : EReal) (max (f 0) (f 1)) := by
  refine (Ideal.multiReduction_maximumf_single src _ hr hφ hacc (ix2 h w)).trans ?_
  have key : (Finset.univ : Finset (Fin 2)).fold max (Ideal.ofBits .f32 0xFF800000#32)
      (fun b : Fin 2 => src (hr.lift (ix2 h w) b)) = max (⊥ : EReal) (max (f 0) (f 1)) := by
    rw [fold_max_two, negInf_eq]
    show max ⊥ (max (src (hr.lift (ix2 h w) (0 : Fin 2))) (src (hr.lift (ix2 h w) (1 : Fin 2)))) = _
    rw [liftG_eq hr h w 0, liftG_eq hr h w 1, hf 0, hf 1]
  exact key

open Classical in
/-- For a vector a of edge lengths over the two grids, the maximum over the grids — from -∞ — of the 0/1 indicator
    "a exceeds 1.0" is, at the edge (h, w), the indicator that SOME grid's edge there exceeds it. -/
theorem gridMax_apply {n1 n2 : ℕ} (a : FVec Ideal ⟨3, ![2, n1, n2]⟩ .f32)
    (hr : (⟨3, ![2, n1, n2]⟩ : Shape).Reduces [0] ⟨2, ![n1, n2]⟩) (hφ : FKind.Formats .f32)
    (hacc : (0xFF800000#32 : BitVec 32) = FKind.maximumf.neutral .f32 hφ) (h32 : 1 < 32) (h : Fin n1) (w : Fin n2)
    (P : Fin 2 → Prop) [Decidable (∃ b, P b)] (ha : ∀ b, (Cert.Spec.one < a (ix3 b h w)) ↔ P b) :
    multiReduction (F := Ideal) .maximumf [0] ⟨2, ![n1, n2]⟩
        (sitofp .f32 (extui 32 (cmpf .ogt a (broadcast ⟨3, ![2, n1, n2]⟩ (FloatOps.ofBits (F := Ideal) .f32 0x3F800000#32))) h32))
        0xFF800000#32 hr hφ hacc (ix2 h w)
      = if ∃ b, P b then (1 : EReal) else 0 := by
  refine (maxRed_two _ hr hφ hacc h w (fun b => if P b then (1 : EReal) else 0) (fun b => ?_)).trans
    (max_bot_indicator_two P)
  rw [sitofp_apply, extui_apply, cmpf_apply, broadcast_apply, indicator_eq]
  exact if_congr (ha b) rfl rfl

/-! ## The four edges of a cell, and the two payloads -/

open Classical in
/-- With H the horizontal and V the vertical edge indicators (already maximised over the grids), the maximum of the
    running array v with the four edges of the interior cell (1+i, 1+j) — left and right, above and below — is the
    maximum of v with the indicator of their disjunction. -/
theorem cell_apply (H : FVec Ideal S32x31 .f32) (V : FVec Ideal S31x32 .f32) (v : FVec Ideal S30x30 .f32)
    (hc : S30x30.ShapeCasts S30x30)
    (s10 : S32x31.Slices ![1, 0] S30x30) (s11 : S32x31.Slices ![1, 1] S30x30)
    (t01 : S31x32.Slices ![0, 1] S30x30) (t11 : S31x32.Slices ![1, 1] S30x30)
    (PH : Fin 32 → Fin 31 → Prop) (PV : Fin 31 → Fin 32 → Prop)
    (hH : ∀ h w, H (ix2 h w) = if PH h w then (1 : EReal) else 0)
    (hV : ∀ h w, V (ix2 h w) = if PV h w then (1 : EReal) else 0) (i j : Fin 30) :
    maximumf (shapeCast S30x30 v hc)
        (maximumf
          (maximumf (extractStridedSlice S30x30 ![1, 0] H s10) (extractStridedSlice S30x30 ![1, 1] H s11))
          (maximumf (extractStridedSlice S30x30 ![0, 1] V t01) (extractStridedSlice S30x30 ![1, 1] V t11)))
        (ix2 i j)
      = max (v (ix2 i j))
          (if (PH (⟨1 + i.val, by have := i.isLt; omega⟩ : Fin 32) (⟨j.val, by have := j.isLt; omega⟩ : Fin 31)
                ∨ PH (⟨1 + i.val, by have := i.isLt; omega⟩ : Fin 32) (⟨1 + j.val, by have := j.isLt; omega⟩ : Fin 31))
              ∨ (PV (⟨i.val, by have := i.isLt; omega⟩ : Fin 31) (⟨1 + j.val, by have := j.isLt; omega⟩ : Fin 32)
                ∨ PV (⟨1 + i.val, by have := i.isLt; omega⟩ : Fin 31) (⟨1 + j.val, by have := j.isLt; omega⟩ : Fin 32))
            then (1 : EReal) else 0) := by
  rw [maximumf_apply, maximumf_apply, maximumf_apply, maximumf_apply, shapeCast_self,
    extractStridedSlice_apply ![1, 0] H s10 (ix2 i j)
      (ix2 (⟨1 + i.val, by have := i.isLt; omega⟩ : Fin 32) (⟨j.val, by have := j.isLt; omega⟩ : Fin 31)) (fun a => by
        match a with
        | ⟨0, _⟩ => rfl
        | ⟨1, _⟩ => exact (Nat.zero_add _).symm),
    extractStridedSlice_apply ![1, 1] H s11 (ix2 i j)
      (ix2 (⟨1 + i.val, by have := i.isLt; omega⟩ : Fin 32) (⟨1 + j.val, by have := j.isLt; omega⟩ : Fin 31)) (fun a => by
        match a with
        | ⟨0, _⟩ => rfl
        | ⟨1, _⟩ => rfl),
    extractStridedSlice_apply ![0, 1] V t01 (ix2 i j)
      (ix2 (⟨i.val, by have := i.isLt; omega⟩ : Fin 31) (⟨1 + j.val, by have := j.isLt; omega⟩ : Fin 32)) (fun a => by
        match a with
        | ⟨0, _⟩ => exact (Nat.zero_add _).symm
        | ⟨1, _⟩ => rfl),
    extractStridedSlice_apply ![1, 1] V t11 (ix2 i j)
      (ix2 (⟨1 + i.val, by have := i.isLt; omega⟩ : Fin 31) (⟨1 + j.val, by have := j.isLt; omega⟩ : Fin 32)) (fun a => by
        match a with
        | ⟨0, _⟩ => rfl
        | ⟨1, _⟩ => rfl),
    hH, hH, hV, hV, max_indicator, max_indicator, max_indicator]

/-- Some grid of the 2-grid block has an anomalous edge at the cell. -/
def blockHot (x0 : Vec Ideal S2x32x32x768 .f32) (i j : Fin 30) : Prop := ∃ b : Fin 2, Cert.Spec.hot (B := 2) x0 b i j

/-- The first payload is the constant 0. -/
theorem pay1_apply (p : S30x30.Idx) : k0_pay1 (F := Ideal) p = 0 := by
  unfold k0_pay1
  exact Ideal.ofBits_zero_f32

/-- The horizontal edge indicators, maximised over the two grids, at the edge (h, w): some grid's horizontal edge
    there is anomalous. -/
theorem hmax_apply (x : FVec Ideal S2x32x32x768 .f32)
    (hs1 : S2x32x32x768.Slices ![0, 0, 1, 0] S2x32x31x768) (hs0 : S2x32x32x768.Slices ![0, 0, 0, 0] S2x32x31x768)
    (hr : S2x32x31x768.Reduces [3] S2x32x31) (hφ : FKind.Formats .f32)
    (hacc : (0x00000000#32 : BitVec 32) = FKind.add.neutral .f32 hφ)
    (hg : S2x32x31.Reduces [0] S32x31) (hacc' : (0xFF800000#32 : BitVec 32) = FKind.maximumf.neutral .f32 hφ)
    (h32 : 1 < 32) (h : Fin 32) (w : Fin 31) (inst : Decidable (∃ b : Fin 2, Cert.Spec.hotH (B := 2) x b h w)) :
    multiReduction (F := Ideal) .maximumf [0] S32x31
        (sitofp .f32 (extui 32 (cmpf .ogt
          (sqrt (multiReduction (F := Ideal) .add [3] S2x32x31
            (mulf (subf (extractStridedSlice S2x32x31x768 ![0, 0, 1, 0] x hs1) (extractStridedSlice S2x32x31x768 ![0, 0, 0, 0] x hs0))
                  (subf (extractStridedSlice S2x32x31x768 ![0, 0, 1, 0] x hs1) (extractStridedSlice S2x32x31x768 ![0, 0, 0, 0] x hs0)))
            0x00000000#32 hr hφ hacc))
          (broadcast S2x32x31 (FloatOps.ofBits (F := Ideal) .f32 0x3F800000#32))) h32))
        0xFF800000#32 hg hφ hacc' (ix2 h w)
      = @ite EReal (∃ b : Fin 2, Cert.Spec.hotH (B := 2) x b h w) inst 1 0 :=
  gridMax_apply _ hg hφ hacc' h32 h w (fun b => Cert.Spec.hotH (B := 2) x b h w) (fun b => by
    unfold Cert.Spec.hotH
    rw [← sumH_apply x hs1 hs0 hr hφ hacc b h w]
    exact Iff.rfl)

/-- The vertical edge indicators, maximised over the two grids, at the edge (h, w): some grid's vertical edge there
    is anomalous. -/
theorem vmax_apply (x : FVec Ideal S2x32x32x768 .f32)
    (hs1 : S2x32x32x768.Slices ![0, 1, 0, 0] S2x31x32x768) (hs0 : S2x32x32x768.Slices ![0, 0, 0, 0] S2x31x32x768)
    (hr : S2x31x32x768.Reduces [3] S2x31x32) (hφ : FKind.Formats .f32)
    (hacc : (0x00000000#32 : BitVec 32) = FKind.add.neutral .f32 hφ)
    (hg : S2x31x32.Reduces [0] S31x32) (hacc' : (0xFF800000#32 : BitVec 32) = FKind.maximumf.neutral .f32 hφ)
    (h32 : 1 < 32) (h : Fin 31) (w : Fin 32) (inst : Decidable (∃ b : Fin 2, Cert.Spec.hotV (B := 2) x b h w)) :
    multiReduction (F := Ideal) .maximumf [0] S31x32
        (sitofp .f32 (extui 32 (cmpf .ogt
          (sqrt (multiReduction (F := Ideal) .add [3] S2x31x32
            (mulf (subf (extractStridedSlice S2x31x32x768 ![0, 1, 0, 0] x hs1) (extractStridedSlice S2x31x32x768 ![0, 0, 0, 0] x hs0))
                  (subf (extractStridedSlice S2x31x32x768 ![0, 1, 0, 0] x hs1) (extractStridedSlice S2x31x32x768 ![0, 0, 0, 0] x hs0)))
            0x00000000#32 hr hφ hacc))
          (broadcast S2x31x32 (FloatOps.ofBits (F := Ideal) .f32 0x3F800000#32))) h32))
        0xFF800000#32 hg hφ hacc' (ix2 h w)
      = @ite EReal (∃ b : Fin 2, Cert.Spec.hotV (B := 2) x b h w) inst 1 0 :=
  gridMax_apply _ hg hφ hacc' h32 h w (fun b => Cert.Spec.hotV (B := 2) x b h w) (fun b => by
    unfold Cert.Spec.hotV
    rw [← sumV_apply x hs1 hs0 hr hφ hacc b h w]
    exact Iff.rfl)

open Classical in
/-- The second payload at the interior cell (1+i, 1+j): the maximum of the running array with the indicator that some
    grid of the block has an anomalous edge at the cell. -/
theorem pay2_apply (x0 : Vec Ideal S2x32x32x768 .f32) (v34 : Vec Ideal S30x30 .f32) (i j : Fin 30) :
    k0_pay2 (F := Ideal) x0 v34 (ix2 i j) = max (v34 (ix2 i j)) (if blockHot x0 i j then (1 : EReal) else 0) := by
  unfold k0_pay2
  rw [shapeCast_self x0]
  refine (cell_apply _ _ v34 _ _ _ _ _
    (fun h w => ∃ b : Fin 2, Cert.Spec.hotH (B := 2) x0 b h w) (fun h w => ∃ b : Fin 2, Cert.Spec.hotV (B := 2) x0 b h w)
    (fun h w => hmax_apply x0 _ _ _ _ _ _ _ _ h w _) (fun h w => vmax_apply x0 _ _ _ _ _ _ _ _ h w _) i j).trans ?_
  refine congrArg (max (v34 (ix2 i j))) (ite_of_iff _ _ ?_ _ _)
  unfold blockHot Cert.Spec.hot
  simp only [exists_or, or_assoc]

end Cert.KernelIdeal.MaskPayload

end
-- ==== Proof.MaskValue.lean ====
/-
  The array of hot cells at the ideal values. A step's cells are the maximum of the running array with the 0/1
  indicator "some grid of the point's block has an anomalous edge at the cell"; so after point n a cell holds the
  indicator "some block up to point n is hot there", and after the last point — the blocks being the pairs of grids
  (2t, 2t + 1), t < 32, of a batch of 64 — the indicator "some grid of the batch is hot there".
-/
import proofs.«142496_j15977278341524_1_alg».proof.Proof.MaskPieces
import proofs.«142496_j15977278341524_1_alg».proof.Proof.MaskBlocks
import proofs.«142496_j15977278341524_1_alg».proof.Proof.MaskPayload

set_option maxRecDepth 16384

noncomputable section

namespace Cert.KernelIdeal.Hand

open Cert.KernelIdeal Cert.KernelIdeal.Gen Cert.KernelIdeal.MaskPayload
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The maximum of two 0/1 indicators is the indicator of any proposition equivalent to the disjunction. -/
theorem ind_step {P Q R : Prop} (hP : Decidable P) (hQ : Decidable Q) (hR : Decidable R) (h : P ∨ Q ↔ R) :
    max (@ite EReal P hP 1 0) (@ite EReal Q hQ 1 0) = @ite EReal R hR 1 0 :=
  (max_indicator P Q).trans (ite_of_iff _ _ h 1 0)

/-- The maximum of 0 and a 0/1 indicator is the indicator. -/
theorem ind_zero {Q R : Prop} (hQ : Decidable Q) (hR : Decidable R) (h : Q ↔ R) :
    max (0 : EReal) (@ite EReal Q hQ 1 0) = @ite EReal R hR 1 0 := by
  by_cases hq : Q
  · rw [if_pos hq, if_pos (h.mp hq)]; simp
  · rw [if_neg hq, if_neg (fun r => hq (h.mpr r))]; simp

/-- After point n a cell of the running array is the indicator of "some block up to point n is hot there". -/
theorem maskChain_apply (c : Dev nD) : ∀ (n : ℕ) (h : n < cfg0.N) (i j : Fin 30),
    maskChain V c n h (ix2 i j)
      = @ite EReal (∃ t : Fin cfg0.N, t.val ≤ n ∧ blockHot (iblk0 V c 0 t) i j) (Classical.propDecidable _) 1 0
  | 0, h, i, j => by
    show k0_pay2 (F := Ideal) (iblk0 V c 0 ⟨0, h⟩) (k0_pay1 (F := Ideal)) (ix2 i j) = _
    rw [pay2_apply, pay1_apply]
    refine ind_zero _ _ ?_
    constructor
    · intro hb
      exact ⟨⟨0, h⟩, le_refl _, hb⟩
    · rintro ⟨t, ht, hb⟩
      have : t = ⟨0, h⟩ := Fin.ext (Nat.le_zero.mp ht)
      exact this ▸ hb
  | n + 1, h, i, j => by
    show k0_pay2 (F := Ideal) (iblk0 V c 0 ⟨n + 1, h⟩) (maskChain V c n (Nat.lt_of_succ_lt h)) (ix2 i j) = _
    rw [pay2_apply, maskChain_apply c n]
    refine ind_step _ _ _ ?_
    constructor
    · rintro (⟨t, ht, hb⟩ | hb)
      · exact ⟨t, Nat.le_succ_of_le ht, hb⟩
      · exact ⟨⟨n + 1, h⟩, le_refl _, hb⟩
    · rintro ⟨t, ht, hb⟩
      by_cases hlast : t.val = n + 1
      · have : t = ⟨n + 1, h⟩ := Fin.ext hlast
        exact Or.inr (this ▸ hb)
      · exact Or.inl ⟨t, by omega, hb⟩

/-- THE ARRAY OF HOT CELLS after the first region: the 0/1 array of the cells where some grid of the batch has an
    anomalous edge, a function of the region's input array alone. -/
theorem mask_array (c : Dev nD) : (dat0 (F := Ideal) V c).arrAt 1 cfg0.N = Cert.Spec.maskF (V c main_v0) := by
  rw [mask_final]
  funext p
  obtain ⟨i, j, rfl⟩ : ∃ (i : Fin 30) (j : Fin 30), p = ix2 i j := ⟨p 0, p 1, eq_ix2 p⟩
  show maskChain V c 31 _ (ix2 i j) = _
  rw [maskChain_apply, Cert.Spec.maskF_ix2]
  have hN : cfg0.N = 32 := N_0
  refine ite_of_iff _ _ ?_ 1 0
  constructor
  · rintro ⟨t, -, b, hb⟩
    rw [iblk0_eq] at hb
    exact ⟨_, (hot_gridPair _ _ _ b i j).mp hb⟩
  · rintro ⟨b, hb⟩
    have hb64 : b.val < 64 := b.isLt
    refine ⟨⟨b.val / 2, by omega⟩, by dsimp only; omega, ⟨b.val % 2, by omega⟩, ?_⟩
    rw [iblk0_eq]
    refine (hot_gridPair _ _ _ _ i j).mpr ?_
    have hbe : (⟨2 * (b.val / 2) + b.val % 2, by omega⟩ : Fin 64) = b := Fin.ext (by dsimp only; omega)
    rw [hbe]; exact hb

end Cert.KernelIdeal.Hand

end
-- ==== Proof.BlendValue.lean ====
import proofs.«142496_j15977278341524_1_alg».proof.Proof.BlendBody
import proofs.«142496_j15977278341524_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The two payloads, read at an index -/

/-- The first store writes the image block as it is: a cast to its own shape changes nothing. -/
theorem pay1_eq {F : FTy → Type} [FloatOps F] (x0 : Vec F S1x32x32x768 .f32) : k1_pay1 x0 = x0 := by
  unfold k1_pay1; exact shapeCast_self _ _

/-- A 1×30×30×768 window of the block at row offset `o1` and column offset `o2`, read at (0, i, j, d), is the block
    at (0, o1 + i, o2 + j, d) — the row `p` and the column `q` given with their values. -/
theorem window_apply {α : Type} (x : S1x32x32x768.Idx → α) (o1 o2 : ℕ)
    (h : S1x32x32x768.Slices ![0, o1, o2, 0] S1x30x30x768) (i j : Fin 30) (d : Fin 768) (p q : Fin 32)
    (hp : p.val = o1 + i.val) (hq : q.val = o2 + j.val) :
    extractStridedSlice S1x30x30x768 ![0, o1, o2, 0] x h (ix4 (0 : Fin 1) i j d) = x (ix4 (0 : Fin 1) p q d) :=
  extractStridedSlice_apply _ _ h _ _ (fun a => match a with
    | ⟨0, _⟩ => rfl
    | ⟨1, _⟩ => hp
    | ⟨2, _⟩ => hq
    | ⟨3, _⟩ => (Nat.zero_add _).symm)

/-- The 30×30 mask, given a unit axis in front and one behind and then repeated along the 768 features, read at
    (0, i, j, d), is the mask at (i, j). -/
theorem mask_apply {α : Type} (x1 : S30x30.Idx → α) (h1 : S30x30.ShapeCasts S30x30) (h2 : S30x30.ShapeCasts S1x30x30x1)
    (h3 : S1x30x30x1.Broadcasts S1x30x30x768) (i j : Fin 30) (d : Fin 768) :
    broadcastTo S1x30x30x768 (shapeCast S1x30x30x1 (shapeCast S30x30 x1 h1) h2) h3 (ix4 (0 : Fin 1) i j d) = x1 (ix2 i j) := by
  rw [shapeCast_self]
  refine (broadcastTo_apply _ h3 _ (ix4 (0 : Fin 1) i j (0 : Fin 1)) (fun a => match a with
    | ⟨0, _⟩ => rfl
    | ⟨1, _⟩ => rfl
    | ⟨2, _⟩ => rfl
    | ⟨3, _⟩ => rfl)).trans ?_
  refine shapeCast_apply _ h2 _ (ix2 i j) ?_
  rw [Shape.rowMajor_val_two, Shape.rowMajor_val_four]
  show i.val * 30 + j.val = ((0 * 30 + i.val) * 30 + j.val) * 1 + 0
  omega

/-- THE BLEND at an interior cell. With c the centre patch (1 + i, 1 + j) and the four neighbours above, below, to the
    left and to the right added in that order, the second store writes at (0, i, j, d)
    c + mask(i, j) · ((½ · c + ½ · (neighbours · ¼)) − c). -/
theorem pay2_apply (x0 : Vec Ideal S1x32x32x768 .f32) (x1 : Vec Ideal S30x30 .f32) (i j : Fin 30) (d : Fin 768) :
    k1_pay2 x0 x1 (ix4 (0 : Fin 1) i j d)
      = x0 (ix4 (0 : Fin 1) (⟨1 + i.val, by have := i.isLt; omega⟩ : Fin 32) (⟨1 + j.val, by have := j.isLt; omega⟩ : Fin 32) d)
        + x1 (ix2 i j)
          * ((Ideal.ofBits .f32 0x3F000000#32
                * x0 (ix4 (0 : Fin 1) (⟨1 + i.val, by have := i.isLt; omega⟩ : Fin 32) (⟨1 + j.val, by have := j.isLt; omega⟩ : Fin 32) d)
              + Ideal.ofBits .f32 0x3F000000#32
                * ((((x0 (ix4 (0 : Fin 1) (⟨i.val, by have := i.isLt; omega⟩ : Fin 32) (⟨1 + j.val, by have := j.isLt; omega⟩ : Fin 32) d)
                        + x0 (ix4 (0 : Fin 1) (⟨2 + i.val, by have := i.isLt; omega⟩ : Fin 32) (⟨1 + j.val, by have := j.isLt; omega⟩ : Fin 32) d))
                      + x0 (ix4 (0 : Fin 1) (⟨1 + i.val, by have := i.isLt; omega⟩ : Fin 32) (⟨j.val, by have := j.isLt; omega⟩ : Fin 32) d))
                    + x0 (ix4 (0 : Fin 1) (⟨1 + i.val, by have := i.isLt; omega⟩ : Fin 32) (⟨2 + j.val, by have := j.isLt; omega⟩ : Fin 32) d))
                  * Ideal.ofBits .f32 0x3E800000#32))
            - x0 (ix4 (0 : Fin 1) (⟨1 + i.val, by have := i.isLt; omega⟩ : Fin 32) (⟨1 + j.val, by have := j.isLt; omega⟩ : Fin 32) d)) := by
  have eU := window_apply x0 0 1 slices_S1x32x32x768_o0_0_1_0_S1x30x30x768 i j d
    (⟨i.val, by have := i.isLt; omega⟩ : Fin 32) (⟨1 + j.val, by have := j.isLt; omega⟩ : Fin 32) (Nat.zero_add _).symm rfl
  have eD := window_apply x0 2 1 slices_S1x32x32x768_o0_2_1_0_S1x30x30x768 i j d
    (⟨2 + i.val, by have := i.isLt; omega⟩ : Fin 32) (⟨1 + j.val, by have := j.isLt; omega⟩ : Fin 32) rfl rfl
  have eL := window_apply x0 1 0 slices_S1x32x32x768_o0_1_0_0_S1x30x30x768 i j d
    (⟨1 + i.val, by have := i.isLt; omega⟩ : Fin 32) (⟨j.val, by have := j.isLt; omega⟩ : Fin 32) rfl (Nat.zero_add _).symm
  have eR := window_apply x0 1 2 slices_S1x32x32x768_o0_1_2_0_S1x30x30x768 i j d
    (⟨1 + i.val, by have := i.isLt; omega⟩ : Fin 32) (⟨2 + j.val, by have := j.isLt; omega⟩ : Fin 32) rfl rfl
  have eC := window_apply x0 1 1 slices_S1x32x32x768_o0_1_1_0_S1x30x30x768 i j d
    (⟨1 + i.val, by have := i.isLt; omega⟩ : Fin 32) (⟨1 + j.val, by have := j.isLt; omega⟩ : Fin 32) rfl rfl
  have eM := mask_apply x1 shapeCasts_S30x30_S30x30 shapeCasts_S30x30_S1x30x30x1 broadcasts_S1x30x30x1_S1x30x30x768 i j d
  unfold k1_pay2
  simp only [pay1_eq, addf_apply, mulf_apply, subf_apply, broadcast_apply, eU, eD, eL, eR, eC, eM]
  rfl

/-! ## The output block, read at an index -/

/-- At an interior index — row 1 + i, column 1 + j — the block holds what the second store wrote at (0, i, j, d):
    the index is the interior rectangle's image of (0, i, j, d), and the last store wins there. -/
theorem out_inner {F : FTy → Type} [FloatOps F] (x0 : Vec F S1x32x32x768 .f32) (x1 : Vec F S30x30 .f32)
    (i j : Fin 30) (d : Fin 768) (h w : Fin 32) (hh : h.val = 1 + i.val) (hw : w.val = 1 + j.val) :
    out1_2 x0 x1 (ix4 (0 : Fin 1) h w d) = k1_pay2 x0 x1 (ix4 (0 : Fin 1) i j d) := by
  have e : (ix4 (0 : Fin 1) h w d : S1x32x32x768.Idx) = rInt1.emb (ix4 (0 : Fin 1) i j d : S1x30x30x768.Idx) := by
    funext a; apply Fin.ext
    match a with
    | ⟨0, _⟩ => rfl
    | ⟨1, _⟩ => show h.val = 1 + 1 * i.val; omega
    | ⟨2, _⟩ => show w.val = 1 + 1 * j.val; omega
    | ⟨3, _⟩ => show d.val = 0 + 1 * d.val; omega
  rw [out1_2_eq, e]
  exact View.canon_cons_emb rInt1 _ _ _

/-- Off the interior — row or column 0 or 31 — the second store does not reach the index, and the first store left
    the image block there. -/
theorem out_outer {F : FTy → Type} [FloatOps F] (x0 : Vec F S1x32x32x768 .f32) (x1 : Vec F S30x30 .f32)
    (h w : Fin 32) (d : Fin 768) (hout : ¬((1 ≤ h.val ∧ h.val ≤ 30) ∧ (1 ≤ w.val ∧ w.val ≤ 30))) :
    out1_2 x0 x1 (ix4 (0 : Fin 1) h w d) = x0 (ix4 (0 : Fin 1) h w d) := by
  have hn : (ix4 (0 : Fin 1) h w d : S1x32x32x768.Idx)
      ∉ (Rect.unit (s := S1x32x32x768) ![0, 1, 1, 0] S1x30x30x768.size inb_S1x32x32x768_S1x30x30x768_0_1_1_0).set := by
    rw [Rect.mem_set_unit]
    intro hall
    have h1 : 1 ≤ h.val ∧ h.val < 1 + 30 := hall 1
    have h2 : 1 ≤ w.val ∧ w.val < 1 + 30 := hall 2
    omega
  rw [out1_2_eq]
  refine (View.canon_cons_of_not_mem (⟨rInt1, k1_pay2 x0 x1⟩ : View.Piece (Elt F) S1x32x32x768 .f32)
    [⟨rWhole1, k1_pay1 x0⟩] hn).trans ?_
  have e1 : View.canon [(⟨rWhole1, k1_pay1 x0⟩ : View.Piece (Elt F) S1x32x32x768 .f32)] = k1_pay1 x0 :=
    View.canon_unit_zero (Val := Elt F) (S := S1x32x32x768) (e := .f32) zeros4 inb_S1x32x32x768_S1x32x32x768_0_0_0_0 (k1_pay1 x0)
  rw [e1, pay1_eq]

/-! ## The block against the specification -/

/-- A block that is grid `b` of the array `X`, with the mask `M`, ends as grid `b` of the specification's array:
    the blend inside, the input outside. -/
theorem block_eq (X : Cert.Spec.SX.Idx → EReal) (M : Cert.Spec.SM.Idx → EReal) (b : Fin 64)
    (x0 : Vec Ideal S1x32x32x768 .f32) (x1 : Vec Ideal S30x30 .f32)
    (hx0 : ∀ (h w : Fin 32) (d : Fin 768), x0 (ix4 (0 : Fin 1) h w d) = X (ix4 b h w d))
    (hx1 : ∀ i j : Fin 30, x1 (ix2 i j) = M (ix2 i j))
    (h w : Fin 32) (d : Fin 768) :
    out1_2 x0 x1 (ix4 (0 : Fin 1) h w d) = Cert.Spec.outK X M (ix4 b h w d) := by
  unfold Cert.Spec.outK
  by_cases hq : Cert.Spec.inner (ix4 b h w d)
  · rw [dif_pos hq]
    have hh : 1 ≤ h.val ∧ h.val ≤ 30 := hq.1
    have hw : 1 ≤ w.val ∧ w.val ≤ 30 := hq.2
    rw [out_inner x0 x1 (Cert.Spec.iOf (ix4 b h w d) hq) (Cert.Spec.jOf (ix4 b h w d) hq) d h w
        (by show h.val = 1 + (h.val - 1); omega) (by show w.val = 1 + (w.val - 1); omega),
      pay2_apply]
    simp only [hx0, hx1]
    rfl
  · rw [dif_neg hq, out_outer x0 x1 h w d hq, hx0]

/-- The same at any index `y` of the block and any index `q` of the array with `y`'s row, column and feature in grid `b`. -/
theorem block_eq_idx (X : Cert.Spec.SX.Idx → EReal) (M : Cert.Spec.SM.Idx → EReal) (b : Fin 64)
    (x0 : Vec Ideal S1x32x32x768 .f32) (x1 : Vec Ideal S30x30 .f32)
    (hx0 : ∀ (h w : Fin 32) (d : Fin 768), x0 (ix4 (0 : Fin 1) h w d) = X (ix4 b h w d))
    (hx1 : ∀ i j : Fin 30, x1 (ix2 i j) = M (ix2 i j))
    (y : S1x32x32x768.Idx) (q : Cert.Spec.SX.Idx)
    (h0 : (q 0).val = b.val) (h1 : (q 1).val = (y 1).val) (h2 : (q 2).val = (y 2).val) (h3 : (q 3).val = (y 3).val) :
    out1_2 x0 x1 y = Cert.Spec.outK X M q := by
  have hy0 : (y 0).val < 1 := (y 0).isLt
  have ey : y = ix4 (0 : Fin 1) (⟨(y 1).val, (y 1).isLt⟩ : Fin 32) (⟨(y 2).val, (y 2).isLt⟩ : Fin 32) (⟨(y 3).val, (y 3).isLt⟩ : Fin 768) := by
    funext a; apply Fin.ext
    match a with
    | ⟨0, _⟩ => show (y 0).val = 0; omega
    | ⟨1, _⟩ => rfl
    | ⟨2, _⟩ => rfl
    | ⟨3, _⟩ => rfl
  have eq : q = ix4 b (⟨(y 1).val, (y 1).isLt⟩ : Fin 32) (⟨(y 2).val, (y 2).isLt⟩ : Fin 32) (⟨(y 3).val, (y 3).isLt⟩ : Fin 768) := by
    funext a; apply Fin.ext
    match a with
    | ⟨0, _⟩ => exact h0
    | ⟨1, _⟩ => exact h1
    | ⟨2, _⟩ => exact h2
    | ⟨3, _⟩ => exact h3
  rw [ey, eq]
  exact block_eq X M b x0 x1 hx0 hx1 _ _ _

/-! ## From the blocks to the array -/

section Array

variable (V : (c : Dev nD) → (b : Ref sig .tc) → Buf (Elt Ideal) ((c : Thread nD τ).loc b))

/-- Where the three windows' blocks sit, decided over the 64 points: point `t`'s image block and output block are
    grid `t` whole; the mask's block is the whole mask at every point. -/
theorem idx_facts1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 2) = 0 ∧ win1_1.index t (1 : Fin 2) = 0)
    ∧ (win1_2.index t (0 : Fin 4) = t.val ∧ win1_2.index t (1 : Fin 4) = 0 ∧ win1_2.index t (2 : Fin 4) = 0 ∧ win1_2.index t (3 : Fin 4) = 0) :=
  (by decide +kernel : ∀ t : Fin grid1.N, _)

/-- A point of the second call's grid as a grid of the batch. -/
abbrev gridOf (t : Fin cfg1.N) : Fin 64 := ⟨t.val, lt_of_lt_of_eq t.isLt (show cfg1.N = 64 from N_1)⟩

/-- Point `t`'s image block is grid `t` of the image array. -/
theorem iblk0_apply (c : Dev nD) (t : Fin cfg1.N) (h w : Fin 32) (d : Fin 768) :
    (iblk1 V c 0 t : Vec Ideal S1x32x32x768 .f32) (ix4 (0 : Fin 1) h w d)
      = (V c main_v0 : Cert.Spec.SX.Idx → EReal) (ix4 (gridOf t) h w d) := by
  obtain ⟨⟨e0, e1, e2, e3⟩, -, -⟩ := idx_facts1 t
  show V c main_v0 (((cfg1.win 0).blk t).view.emb (ix4 (0 : Fin 1) h w d)) = V c main_v0 (ix4 (gridOf t) h w d)
  refine congrArg (V c main_v0) ?_
  funext a; apply Fin.ext
  match a with
  | ⟨0, _⟩ => show win1_0.index t (0 : Fin 4) * 1 + 1 * 0 = t.val; omega
  | ⟨1, _⟩ => show win1_0.index t (1 : Fin 4) * 32 + 1 * h.val = h.val; omega
  | ⟨2, _⟩ => show win1_0.index t (2 : Fin 4) * 32 + 1 * w.val = w.val; omega
  | ⟨3, _⟩ => show win1_0.index t (3 : Fin 4) * 768 + 1 * d.val = d.val; omega

/-- Point `t`'s mask block is the mask array. -/
theorem iblk1_apply (c : Dev nD) (t : Fin cfg1.N) (i j : Fin 30) :
    (iblk1 V c 1 t : Vec Ideal S30x30 .f32) (ix2 i j) = (V c main_v1 : Cert.Spec.SM.Idx → EReal) (ix2 i j) := by
  obtain ⟨-, ⟨e0, e1⟩, -⟩ := idx_facts1 t
  show V c main_v1 (((cfg1.win 1).blk t).view.emb (ix2 i j)) = V c main_v1 (ix2 i j)
  refine congrArg (V c main_v1) ?_
  funext a; apply Fin.ext
  match a with
  | ⟨0, _⟩ => show win1_1.index t (0 : Fin 2) * 30 + 1 * i.val = i.val; omega
  | ⟨1, _⟩ => show win1_1.index t (1 : Fin 2) * 30 + 1 * j.val = j.val; omega

/-- WHAT POINT `t` WRITES BACK is block `t` of the specification's array of the entry contents. -/
theorem flushed_eq (c : Dev nD) (t : Fin cfg1.N) :
    (dat1 (F := Ideal) V c).flushed 2 t
      = ((cfg1.win 2).blk t).view.read (Elt Ideal) (Cert.Spec.outK (V c main_v0) (V c main_v1)) := by
  show (cfg1.win 2).cut (grid1.coords t) ((dat1 V c).after 2 t) = _
  rw [after1_2]
  obtain ⟨-, -, e0, e1, e2, e3⟩ := idx_facts1 t
  funext y
  show out1_2 (iblk1 V c 0 t) (iblk1 V c 1 t) y
    = Cert.Spec.outK (V c main_v0) (V c main_v1) (((cfg1.win 2).blk t).view.emb y)
  have hy0 : (y 0).val < 1 := (y 0).isLt
  exact block_eq_idx (V c main_v0) (V c main_v1) (gridOf t) (iblk1 V c 0 t) (iblk1 V c 1 t)
    (iblk0_apply V c t) (iblk1_apply V c t) y (((cfg1.win 2).blk t).view.emb y)
    (by show win1_2.index t (0 : Fin 4) * 1 + 1 * (y 0).val = t.val; omega)
    (by show win1_2.index t (1 : Fin 4) * 32 + 1 * (y 1).val = (y 1).val; omega)
    (by show win1_2.index t (2 : Fin 4) * 32 + 1 * (y 2).val = (y 2).val; omega)
    (by show win1_2.index t (3 : Fin 4) * 768 + 1 * (y 3).val = (y 3).val; omega)

/-- An index of the output array is in point `t`'s block iff each coordinate is in the block's range on its axis. -/
theorem mem_blk1_2 (t : Fin cfg1.N) (i : S64x32x32x768.Idx) :
    i ∈ ((cfg1.win 2).blk t).view.set ↔ ∀ a : Fin 4, win1_2.index t a * S1x32x32x768.size a ≤ (i a).val
      ∧ (i a).val < win1_2.index t a * S1x32x32x768.size a + S1x32x32x768.size a := by
  show i ∈ ((View.whole main_v2).slice (win1_2.rect t)).set ↔ _
  rw [View.set_slice_whole, Rect.mem_set_unit]
  exact Iff.rfl

/-- Every index of the output array is in some point's block: the point of its grid. -/
theorem cover1 (i : S64x32x32x768.Idx) :
    ∃ t : Fin cfg1.N, (cfg1.win 2).flush t = true ∧ i ∈ ((cfg1.win 2).blk t).view.set := by
  have hi0 : (i 0).val < 64 := (i 0).isLt
  have hi1 : (i 1).val < 32 := (i 1).isLt
  have hi2 : (i 2).val < 32 := (i 2).isLt
  have hi3 : (i 3).val < 768 := (i 3).isLt
  obtain ⟨t, ht⟩ : ∃ t : Fin cfg1.N, t.val = (i 0).val := ⟨⟨(i 0).val, lt_of_lt_of_eq hi0 (show cfg1.N = 64 from N_1).symm⟩, rfl⟩
  obtain ⟨-, -, e0, e1, e2, e3⟩ := idx_facts1 t
  refine ⟨t, flush1_2 t, ?_⟩
  rw [mem_blk1_2]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 32 ≤ (i 1).val ∧ (i 1).val < win1_2.index t (1 : Fin 4) * 32 + 32; omega
  | ⟨2, _⟩ => show win1_2.index t (2 : Fin 4) * 32 ≤ (i 2).val ∧ (i 2).val < win1_2.index t (2 : Fin 4) * 32 + 32; omega
  | ⟨3, _⟩ => show win1_2.index t (3 : Fin 4) * 768 ≤ (i 3).val ∧ (i 3).val < win1_2.index t (3 : Fin 4) * 768 + 768; omega

/-- THE OUTPUT ARRAY after the second call: the specification's array of the image and the mask as the call finds
    them — every point writes its grid of it, and the 64 grids are the whole array. -/
theorem blend_array (c : Dev nD) :
    (dat1 (F := Ideal) V c).arrAt 2 cfg1.N = Cert.Spec.outK (V c main_v0) (V c main_v1) :=
  (dat1 (F := Ideal) V c).arrAt_eq_of_cover 2 (Cert.Spec.outK (V c main_v0) (V c main_v1))
    (fun t _ => flushed_eq V c t) cover1

end Array

end Cert.KernelIdeal.Hand

end
-- ==== Proof.KernelValue.lean ====
/-
  What the kernel's program computes, whole: the argument is laid out as 64 grids of 32 × 32 patches; the first region
  leaves the 0/1 array of hot cells of that array; the second leaves centre + cell · (blend − centre) inside and the
  input outside; the result is laid back out. On a finite argument this is the choice "blend at a hot interior cell,
  the input elsewhere".
-/
import proofs.«142496_j15977278341524_1_alg».proof.Proof.Run
import proofs.«142496_j15977278341524_1_alg».proof.Proof.MaskValue
import proofs.«142496_j15977278341524_1_alg».proof.Proof.BlendValue
import proofs.«142496_j15977278341524_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The first region's input array is the argument laid out as grids of patches. -/
theorem ent0_main_v0 (c : Dev nD) :
    (ent0 m ρ c main_v0 : S64x32x32x768.Idx → EReal)
      = shapeCast S64x32x32x768 (m ((c : Thread nD τ).loc main_arg0)) shapeCasts_S64x1024x768_S64x32x32x768 := by
  show StableHlo.after hostOps0 (fun b => m (c, b)) (Proc.devRef .tc main_v0) = _
  after_results; rfl

/-- The second region finds the same input array: the first region only reads it. -/
theorem ent1_main_v0 (c : Dev nD) : ent1 m ρ c main_v0 = ent0 m ρ c main_v0 :=
  (cont2_arr m ρ c 0).trans (((dat0 (ent0 m ρ) c).arrAt_in 0 rfl _).trans (A_eq0 (ent0 m ρ) c 0))

/-- … and the array of hot cells the first region left. -/
theorem ent1_main_v1 (c : Dev nD) : ent1 m ρ c main_v1 = Cert.Spec.maskF (ent0 m ρ c main_v0) :=
  (cont2_arr m ρ c 1).trans (mask_array (ent0 m ρ) c)

/-- What the second region leaves in its result array. -/
theorem cont3_main_v2 (c : Dev nD) :
    cont3 m ρ c (Proc.devRef .tc main_v2) = Cert.Spec.outK (ent1 m ρ c main_v0) (ent1 m ρ c main_v1) :=
  (cont3_arr m ρ c 2).trans (blend_array (ent1 m ρ) c)

/-- The result is that array laid back out. -/
theorem cont4_main_v3 (c : Dev nD) :
    (cont4 m ρ c (Proc.devRef .tc main_v3) : S64x1024x768.Idx → EReal)
      = shapeCast S64x1024x768 (cont3 m ρ c (Proc.devRef .tc main_v2)) shapeCasts_S64x32x32x768_S64x1024x768 := by
  show StableHlo.after hostOps2 (cont3 m ρ c) (Proc.devRef .tc main_v3) = _
  after_results; rfl

/-- THE KERNEL'S VALUE on a finite argument. -/
theorem kernel_value (c : Dev nD) (hfin : ∀ i, ∃ r : ℝ, m ((c : Thread nD τ).loc main_arg0) i = (r : EReal)) :
    (cont4 m ρ c (Proc.devRef .tc main_v3) : S64x1024x768.Idx → EReal)
      = shapeCast S64x1024x768
          (Cert.Spec.outR (shapeCast S64x32x32x768 (m ((c : Thread nD τ).loc main_arg0)) shapeCasts_S64x1024x768_S64x32x32x768))
          shapeCasts_S64x32x32x768_S64x1024x768 := by
  rw [cont4_main_v3, cont3_main_v2, ent1_main_v1, ent1_main_v0, ent0_main_v0]
  have hX : ∀ q, ∃ r : ℝ, (shapeCast S64x32x32x768 (m ((c : Thread nD τ).loc main_arg0)) shapeCasts_S64x1024x768_S64x32x32x768
      : Cert.Spec.SX.Idx → EReal) q = (r : EReal) := fun q => hfin _
  rw [Cert.Spec.outK_maskF _ hX]

end Cert.KernelIdeal.Hand

end
-- ==== Proof.RefMask.lean ====
import proofs.«142496_j15977278341524_1_alg».proof.Proof.Gen.ReferenceIdeal.Read
import proofs.«142496_j15977278341524_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## One-bit words -/

/-- The disjunction of two one-bit words is `1` exactly when one of them is. -/
theorem ori_eq_one_iff (x y : BitVec 1) : IntOp.ori x y = 1#1 ↔ x = 1#1 ∨ y = 1#1 := by
  unfold IntOp.ori
  revert x y
  decide

/-- A fold of disjunctions from `0` over a finite set is `1` exactly when some term is. -/
theorem fold_ori_eq_one_iff {κ : Type} [DecidableEq κ] (S : Finset κ) (g : κ → BitVec 1) :
    S.fold IntOp.ori 0#1 g = 1#1 ↔ ∃ k ∈ S, g k = 1#1 := by
  induction S using Finset.induction_on with
  | empty => simp
  | insert a S ha ih =>
    rw [Finset.fold_insert ha, ori_eq_one_iff, ih]
    constructor
    · rintro (h | ⟨k, hk, h⟩)
      · exact ⟨a, Finset.mem_insert_self _ _, h⟩
      · exact ⟨k, Finset.mem_insert_of_mem hk, h⟩
    · rintro ⟨k, hk, h⟩
      rcases Finset.mem_insert.1 hk with rfl | hk
      · exact Or.inl h
      · exact Or.inr ⟨k, hk, h⟩

/-- The ordered "greater than" of two extended reals, as a one-bit word. -/
theorem cmp_ogt_eq_one_iff (a b : EReal) : Ideal.cmp .ogt a b = 1#1 ↔ b < a := by
  unfold Ideal.cmp
  by_cases h : b < a <;> simp [h]

variable (x0 : (⟨Cert.ReferenceIdeal.S64x1024x768, .f32⟩ : BufTy).Contents (Elt Ideal))

/-! ## The edges' squared lengths -/

/-- The sum of squared differences along a row, at grid `b`, row `h`, edge `w`. -/
theorem v8_eq (b : Fin 64) (h : Fin 32) (w : Fin 31) :
    val_main_v8 (F := Ideal) x0 (ix3 b h w) = Cert.Spec.sqH (B := 64) (val_main_v0 (F := Ideal) x0) b h w := by
  rw [val_main_v8_apply, val_main_cst_apply, Ideal.ofBits_def, Ideal.ofBits_zero_f32, zero_add]
  unfold Cert.Spec.sqH
  refine Finset.sum_congr rfl fun k _ => ?_
  rw [val_main_v7_apply, val_main_v3_apply, val_main_v1_apply, val_main_v2_apply]
  have e1 : idx_main_v1 (idx_main_v8 (ix3 b h w) k)
      = ix4 b h (⟨1 + w.val, by have := w.isLt; omega⟩ : Fin 32) k :=
    funext fun a => Fin.ext (by match a with | ⟨0, _⟩ => rfl | ⟨1, _⟩ => rfl | ⟨2, _⟩ => rfl | ⟨3, _⟩ => rfl)
  have e2 : idx_main_v2 (idx_main_v8 (ix3 b h w) k)
      = ix4 b h (⟨w.val, by have := w.isLt; omega⟩ : Fin 32) k :=
    funext fun a => Fin.ext (by match a with | ⟨0, _⟩ => rfl | ⟨1, _⟩ => rfl | ⟨2, _⟩ => rfl | ⟨3, _⟩ => rfl)
  rw [e1, e2]
  rfl

/-- The sum of squared differences down a column, at grid `b`, edge `h`, column `w`. -/
theorem v11_eq (b : Fin 64) (h : Fin 31) (w : Fin 32) :
    val_main_v11 (F := Ideal) x0 (ix3 b h w) = Cert.Spec.sqV (B := 64) (val_main_v0 (F := Ideal) x0) b h w := by
  rw [val_main_v11_apply, val_main_cst_0_apply, Ideal.ofBits_def, Ideal.ofBits_zero_f32, zero_add]
  unfold Cert.Spec.sqV
  refine Finset.sum_congr rfl fun k _ => ?_
  rw [val_main_v10_apply, val_main_v6_apply, val_main_v4_apply, val_main_v5_apply]
  have e1 : idx_main_v4 (idx_main_v11 (ix3 b h w) k)
      = ix4 b (⟨1 + h.val, by have := h.isLt; omega⟩ : Fin 32) w k :=
    funext fun a => Fin.ext (by match a with | ⟨0, _⟩ => rfl | ⟨1, _⟩ => rfl | ⟨2, _⟩ => rfl | ⟨3, _⟩ => rfl)
  have e2 : idx_main_v5 (idx_main_v11 (ix3 b h w) k)
      = ix4 b (⟨h.val, by have := h.isLt; omega⟩ : Fin 32) w k :=
    funext fun a => Fin.ext (by match a with | ⟨0, _⟩ => rfl | ⟨1, _⟩ => rfl | ⟨2, _⟩ => rfl | ⟨3, _⟩ => rfl)
  rw [e1, e2]
  rfl

/-! ## An edge is anomalous -/

/-- The comparison bit of a horizontal edge is `1` exactly when the edge is anomalous. -/
theorem v14_iff (b : Fin 64) (h : Fin 32) (w : Fin 31) :
    val_main_v14 (F := Ideal) x0 (ix3 b h w) = 1#1 ↔ Cert.Spec.hotH (B := 64) (val_main_v0 (F := Ideal) x0) b h w := by
  rw [val_main_v14_apply, Ideal.cmpf_def, cmp_ogt_eq_one_iff, val_main_v9_apply, Ideal.hostUnary_sqrt_def, v8_eq,
    val_main_v13_apply, val_main_cst_1_apply, Ideal.ofBits_def]
  exact Iff.rfl

/-- The comparison bit of a vertical edge is `1` exactly when the edge is anomalous. -/
theorem v17_iff (b : Fin 64) (h : Fin 31) (w : Fin 32) :
    val_main_v17 (F := Ideal) x0 (ix3 b h w) = 1#1 ↔ Cert.Spec.hotV (B := 64) (val_main_v0 (F := Ideal) x0) b h w := by
  rw [val_main_v17_apply, Ideal.cmpf_def, cmp_ogt_eq_one_iff, val_main_v12_apply, Ideal.hostUnary_sqrt_def, v11_eq,
    val_main_v16_apply, val_main_cst_2_apply, Ideal.ofBits_def]
  exact Iff.rfl

/-! ## Some grid of the batch has the edge anomalous -/

/-- The disjunction over the batch of the horizontal comparison bits. -/
theorem v15_iff (h : Fin 32) (w : Fin 31) :
    val_main_v15 (F := Ideal) x0 (ix2 h w) = 1#1
      ↔ ∃ b : Fin 64, Cert.Spec.hotH (B := 64) (val_main_v0 (F := Ideal) x0) b h w := by
  unfold val_main_v15
  rw [Host.reduce_eq_fold_single IntOp.ori (val_main_v14 (F := Ideal) x0) (val_main_c (F := Ideal))
    Facts₀.reducesTo_S64x32x31_S32x31_d0 (by decide) Facts₀.h_S_ (ix2 h w), val_main_c_apply, fold_ori_eq_one_iff]
  constructor
  · rintro ⟨k, _, hk⟩
    refine ⟨⟨k.val, k.isLt⟩, (v14_iff x0 ⟨k.val, k.isLt⟩ h w).1 ?_⟩
    rw [← hk]
    exact congrArg (val_main_v14 (F := Ideal) x0)
      (funext fun a => Fin.ext (by match a with | ⟨0, _⟩ => rfl | ⟨1, _⟩ => rfl | ⟨2, _⟩ => rfl))
  · rintro ⟨b, hb⟩
    refine ⟨⟨b.val, b.isLt⟩, Finset.mem_univ _, ?_⟩
    rw [← (v14_iff x0 b h w).2 hb]
    exact congrArg (val_main_v14 (F := Ideal) x0)
      (funext fun a => Fin.ext (by match a with | ⟨0, _⟩ => rfl | ⟨1, _⟩ => rfl | ⟨2, _⟩ => rfl))

/-- The disjunction over the batch of the vertical comparison bits. -/
theorem v18_iff (h : Fin 31) (w : Fin 32) :
    val_main_v18 (F := Ideal) x0 (ix2 h w) = 1#1
      ↔ ∃ b : Fin 64, Cert.Spec.hotV (B := 64) (val_main_v0 (F := Ideal) x0) b h w := by
  unfold val_main_v18
  rw [Host.reduce_eq_fold_single IntOp.ori (val_main_v17 (F := Ideal) x0) (val_main_c_3 (F := Ideal))
    Facts₀.reducesTo_S64x31x32_S31x32_d0 (by decide) Facts₀.h_S_ (ix2 h w), val_main_c_3_apply, fold_ori_eq_one_iff]
  constructor
  · rintro ⟨k, _, hk⟩
    refine ⟨⟨k.val, k.isLt⟩, (v17_iff x0 ⟨k.val, k.isLt⟩ h w).1 ?_⟩
    rw [← hk]
    exact congrArg (val_main_v17 (F := Ideal) x0)
      (funext fun a => Fin.ext (by match a with | ⟨0, _⟩ => rfl | ⟨1, _⟩ => rfl | ⟨2, _⟩ => rfl))
  · rintro ⟨b, hb⟩
    refine ⟨⟨b.val, b.isLt⟩, Finset.mem_univ _, ?_⟩
    rw [← (v17_iff x0 b h w).2 hb]
    exact congrArg (val_main_v17 (F := Ideal) x0)
      (funext fun a => Fin.ext (by match a with | ⟨0, _⟩ => rfl | ⟨1, _⟩ => rfl | ⟨2, _⟩ => rfl))

/-! ## The hot cells -/

/-- The cell array's bit at the interior cell (1+i, 1+j) is `1` exactly when the cell is hot. -/
theorem mask_iff (i j : Fin 30) :
    val_main_v25 (F := Ideal) x0 (ix2 i j) = 1#1 ↔ Cert.Spec.anyHot (val_main_v0 (F := Ideal) x0) i j := by
  have e19 : idx_main_v19 (ix2 i j)
      = ix2 (⟨1 + i.val, by have := i.isLt; omega⟩ : Fin 32) (⟨j.val, by have := j.isLt; omega⟩ : Fin 31) :=
    funext fun a => Fin.ext (by match a with | ⟨0, _⟩ => rfl | ⟨1, _⟩ => rfl)
  have e20 : idx_main_v20 (ix2 i j)
      = ix2 (⟨1 + i.val, by have := i.isLt; omega⟩ : Fin 32) (⟨1 + j.val, by have := j.isLt; omega⟩ : Fin 31) :=
    funext fun a => Fin.ext (by match a with | ⟨0, _⟩ => rfl | ⟨1, _⟩ => rfl)
  have e22 : idx_main_v22 (ix2 i j)
      = ix2 (⟨i.val, by have := i.isLt; omega⟩ : Fin 31) (⟨1 + j.val, by have := j.isLt; omega⟩ : Fin 32) :=
    funext fun a => Fin.ext (by match a with | ⟨0, _⟩ => rfl | ⟨1, _⟩ => rfl)
  have e24 : idx_main_v24 (ix2 i j)
      = ix2 (⟨1 + i.val, by have := i.isLt; omega⟩ : Fin 31) (⟨1 + j.val, by have := j.isLt; omega⟩ : Fin 32) :=
    funext fun a => Fin.ext (by match a with | ⟨0, _⟩ => rfl | ⟨1, _⟩ => rfl)
  rw [val_main_v25_apply, ori_eq_one_iff, val_main_v23_apply, ori_eq_one_iff, val_main_v21_apply, ori_eq_one_iff,
    val_main_v19_apply, val_main_v20_apply, val_main_v22_apply, val_main_v24_apply, e19, e20, e22, e24,
    v15_iff, v15_iff, v18_iff, v18_iff]
  unfold Cert.Spec.anyHot Cert.Spec.hot
  simp only [exists_or]

end Cert.ReferenceIdeal.RefValue

end
-- ==== Proof.RefInterior.lean ====
import proofs.«142496_j15977278341524_1_alg».proof.Proof.Gen.ReferenceIdeal.Read
import proofs.«142496_j15977278341524_1_alg».proof.Proof.Spec
import Idealize.ShloMosaic.Lib.ValueIdx
import Idealize.ShloMosaic.Lib.Pipeline.Value
import Idealize.ShloMosaic.PureOps.Ideal.Laws
import Idealize.ShloMosaic.PureOps.Reduce
import proofs.«142496_j15977278341524_1_alg».proof.Proof.RefMask

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨Cert.ReferenceIdeal.S64x1024x768, .f32⟩ : BufTy).Contents (Elt Ideal))

/-! ## The interior patches -/

/-- The centre slice at an interior cell is the centre patch. -/
theorem v35_eq (b : Fin 64) (i j : Fin 30) (d : Fin 768) :
    val_main_v35 (F := Ideal) x0 (ix4 b i j d) = Cert.Spec.ctr (val_main_v0 (F := Ideal) x0) b i j d := by
  rw [val_main_v35_apply]
  unfold Cert.Spec.ctr
  exact congrArg (val_main_v0 (F := Ideal) x0)
    (funext fun a => Fin.ext (by match a with | ⟨0, _⟩ => rfl | ⟨1, _⟩ => rfl | ⟨2, _⟩ => rfl | ⟨3, _⟩ => rfl))

/-- The sum of the four neighbour slices at an interior cell is the sum of the four neighbours. -/
theorem v32_eq (b : Fin 64) (i j : Fin 30) (d : Fin 768) :
    val_main_v32 (F := Ideal) x0 (ix4 b i j d) = Cert.Spec.nbr (val_main_v0 (F := Ideal) x0) b i j d := by
  rw [val_main_v32_apply, val_main_v30_apply, val_main_v28_apply, val_main_v26_apply, val_main_v27_apply,
    val_main_v29_apply, val_main_v31_apply]
  have e26 : idx_main_v26 (ix4 b i j d)
      = ix4 b (⟨i.val, by have := i.isLt; omega⟩ : Fin 32) (⟨1 + j.val, by have := j.isLt; omega⟩ : Fin 32) d :=
    funext fun a => Fin.ext (by match a with | ⟨0, _⟩ => rfl | ⟨1, _⟩ => rfl | ⟨2, _⟩ => rfl | ⟨3, _⟩ => rfl)
  have e27 : idx_main_v27 (ix4 b i j d)
      = ix4 b (⟨2 + i.val, by have := i.isLt; omega⟩ : Fin 32) (⟨1 + j.val, by have := j.isLt; omega⟩ : Fin 32) d :=
    funext fun a => Fin.ext (by match a with | ⟨0, _⟩ => rfl | ⟨1, _⟩ => rfl | ⟨2, _⟩ => rfl | ⟨3, _⟩ => rfl)
  have e29 : idx_main_v29 (ix4 b i j d)
      = ix4 b (⟨1 + i.val, by have := i.isLt; omega⟩ : Fin 32) (⟨j.val, by have := j.isLt; omega⟩ : Fin 32) d :=
    funext fun a => Fin.ext (by match a with | ⟨0, _⟩ => rfl | ⟨1, _⟩ => rfl | ⟨2, _⟩ => rfl | ⟨3, _⟩ => rfl)
  have e31 : idx_main_v31 (ix4 b i j d)
      = ix4 b (⟨1 + i.val, by have := i.isLt; omega⟩ : Fin 32) (⟨2 + j.val, by have := j.isLt; omega⟩ : Fin 32) d :=
    funext fun a => Fin.ext (by match a with | ⟨0, _⟩ => rfl | ⟨1, _⟩ => rfl | ⟨2, _⟩ => rfl | ⟨3, _⟩ => rfl)
  rw [e26, e27, e29, e31]
  rfl

/-- The blended slice at an interior cell is the blend. -/
theorem v40_eq (b : Fin 64) (i j : Fin 30) (d : Fin 768) :
    val_main_v40 (F := Ideal) x0 (ix4 b i j d) = Cert.Spec.bld (val_main_v0 (F := Ideal) x0) b i j d := by
  rw [val_main_v40_apply, val_main_v37_apply, val_main_v39_apply, val_main_v34_apply, v35_eq, v32_eq,
    val_main_v36_apply, val_main_v38_apply, val_main_v33_apply, val_main_cst_5_apply, val_main_cst_6_apply,
    val_main_cst_4_apply]
  rfl

/-- The broadcast cell array at an interior index is the cell array at the cell. -/
theorem call0_v0_eq (b : Fin 64) (i j : Fin 30) (d : Fin 768) :
    val_main_call0_v0 (F := Ideal) x0 (ix4 b i j d) = val_main_v25 (F := Ideal) x0 (ix2 i j) := by
  rw [val_main_call0_v0_apply, val_main_v41_apply]
  exact congrArg (val_main_v25 (F := Ideal) x0)
    (funext fun a => Fin.ext (by match a with | ⟨0, _⟩ => rfl | ⟨1, _⟩ => rfl))

/-- The selected interior: the blend where the cell array's bit is `1`, the centre where it is `0`. -/
theorem v42_select (b : Fin 64) (i j : Fin 30) (d : Fin 768) :
    val_main_v42 (F := Ideal) x0 (ix4 b i j d)
      = Scalar.select (val_main_v25 (F := Ideal) x0 (ix2 i j))
          (Cert.Spec.bld (val_main_v0 (F := Ideal) x0) b i j d) (Cert.Spec.ctr (val_main_v0 (F := Ideal) x0) b i j d) := by
  rw [val_main_v42_apply, call0_v0_eq, v40_eq, v35_eq]

open Classical in
/-- The selected interior: the blend at a hot cell, the centre at any other. -/
theorem v42_eq (b : Fin 64) (i j : Fin 30) (d : Fin 768) :
    val_main_v42 (F := Ideal) x0 (ix4 b i j d)
      = if Cert.Spec.anyHot (val_main_v0 (F := Ideal) x0) i j then Cert.Spec.bld (val_main_v0 (F := Ideal) x0) b i j d
        else Cert.Spec.ctr (val_main_v0 (F := Ideal) x0) b i j d := by
  rw [v42_select]
  by_cases hh : Cert.Spec.anyHot (val_main_v0 (F := Ideal) x0) i j
  · rw [if_pos hh, (mask_iff x0 i j).2 hh, select_one]
  · rw [if_neg hh, eq_zero_of_ne_one (fun e => hh ((mask_iff x0 i j).1 e)), select_zero]

end Cert.ReferenceIdeal.RefValue

end
-- ==== Proof.RefScatter.lean ====
import proofs.«142496_j15977278341524_1_alg».proof.Proof.Gen.ReferenceIdeal.Read
import proofs.«142496_j15977278341524_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## A fold of point writes, read at one point

A scatter whose body returns the update is a left fold of point writes over the update indices. Read at one
point `q`, only the steps that write `q` matter: if none does the initial value stays, and if exactly one
update index does, its value is what is read. -/

section Fold
variable {ι α : Type} {N : Nat}

/-- No step of the list writes `q`: the fold reads the initial value there. -/
theorem foldl_miss (step : (ι → α) → Fin N → (ι → α)) (q : ι) (P : Fin N → Prop)
    (hother : ∀ r n, ¬ P n → step r n q = r q) :
    ∀ (l : List (Fin N)) (x : ι → α), (∀ n ∈ l, ¬ P n) → l.foldl step x q = x q
  | [], x, _ => rfl
  | n :: l, x, h => by
      rw [List.foldl_cons, foldl_miss step q P hother l (step x n) (fun m hm => h m (List.mem_cons_of_mem _ hm))]
      exact hother x n (h n (List.mem_cons_self ..))

/-- Exactly one update index `n₀` of the list writes `q`: the fold reads that update's value there. -/
theorem foldl_hit (step : (ι → α) → Fin N → (ι → α)) (q : ι) (P : Fin N → Prop) (v : Fin N → α)
    (hother : ∀ r n, ¬ P n → step r n q = r q) (hhit : ∀ r n, P n → step r n q = v n) (n₀ : Fin N) (hP₀ : P n₀) :
    ∀ (l : List (Fin N)) (x : ι → α), n₀ ∈ l → (∀ m ∈ l, P m → m = n₀) → l.foldl step x q = v n₀
  | [], x, h, _ => absurd h (List.not_mem_nil)
  | n :: l, x, hmem, huniq => by
      rw [List.foldl_cons]
      by_cases hl : n₀ ∈ l
      · exact foldl_hit step q P v hother hhit n₀ hP₀ l (step x n) hl (fun m hm => huniq m (List.mem_cons_of_mem _ hm))
      · have hn : n = n₀ := by
          rcases List.mem_cons.1 hmem with h | h
          · exact h.symm
          · exact absurd h hl
        subst hn
        rw [foldl_miss step q P hother l (step x n)
          (fun m hm hP => hl (by rw [← huniq m (List.mem_cons_of_mem _ hm) hP]; exact hm))]
        exact hhit x n hP₀

end Fold

/-! ## A scatter that sets, read at an index -/

section Scatter
variable {s si u : Shape} {w : Nat} {α : Type}

/-- The scatter's step at `q` when the update index does not land on `q`. -/
theorem scatter_step_other (d : ScatterDims s si u) (idx : IVec si w) (upd : u.Idx → α) (q : s.Idx)
    (r : s.Idx → α) (n : Fin u.numel) (hn : ¬ d.resultIdx? (u.rowMajor.symm n) idx = some q) :
    (match d.resultIdx? (u.rowMajor.symm n) idx with
      | some i => fun i' => if i' = i then (fun (_ b : α) => b) (r i) (upd (u.rowMajor.symm n)) else r i'
      | none => r) q = r q := by
  revert hn
  generalize d.resultIdx? (u.rowMajor.symm n) idx = o
  intro hn
  cases o with
  | none => rfl
  | some i =>
    have hqi : ¬ q = i := fun e => hn (by rw [e])
    show (if q = i then _ else r q) = r q
    rw [if_neg hqi]

/-- The scatter's step at `q` when the update index lands on `q`. -/
theorem scatter_step_hit (d : ScatterDims s si u) (idx : IVec si w) (upd : u.Idx → α) (q : s.Idx)
    (r : s.Idx → α) (n : Fin u.numel) (hn : d.resultIdx? (u.rowMajor.symm n) idx = some q) :
    (match d.resultIdx? (u.rowMajor.symm n) idx with
      | some i => fun i' => if i' = i then (fun (_ b : α) => b) (r i) (upd (u.rowMajor.symm n)) else r i'
      | none => r) q = upd (u.rowMajor.symm n) := by
  revert hn
  generalize d.resultIdx? (u.rowMajor.symm n) idx = o
  intro hn
  subst hn
  show (if q = q then _ else r q) = upd (u.rowMajor.symm n)
  rw [if_pos rfl]

/-- No update index lands on `q`: the scatter reads the operand there. -/
theorem scatter_set_miss (d : ScatterDims s si u) (x : s.Idx → α) (idx : IVec si w) (upd : u.Idx → α) (q : s.Idx)
    (h : ∀ j : u.Idx, ¬ d.resultIdx? j idx = some q) :
    Host.scatter d (fun _ b => b) x idx upd q = x q := by
  unfold Host.scatter
  exact foldl_miss _ q (fun n => d.resultIdx? (u.rowMajor.symm n) idx = some q)
    (fun r n hn => scatter_step_other d idx upd q r n hn) _ x (fun n _ => h _)

/-- Exactly the update index `j₀` lands on `q`: the scatter reads the update at `j₀` there. -/
theorem scatter_set_hit (d : ScatterDims s si u) (x : s.Idx → α) (idx : IVec si w) (upd : u.Idx → α) (q : s.Idx)
    (j₀ : u.Idx) (h₀ : d.resultIdx? j₀ idx = some q) (huniq : ∀ j : u.Idx, d.resultIdx? j idx = some q → j = j₀) :
    Host.scatter d (fun _ b => b) x idx upd q = upd j₀ := by
  unfold Host.scatter
  have key := foldl_hit (fun r n =>
      match d.resultIdx? (u.rowMajor.symm n) idx with
      | some i => fun i' => if i' = i then (fun (_ b : α) => b) (r i) (upd (u.rowMajor.symm n)) else r i'
      | none => r) q (fun n => d.resultIdx? (u.rowMajor.symm n) idx = some q) (fun n => upd (u.rowMajor.symm n))
    (fun r n hn => scatter_step_other d idx upd q r n hn) (fun r n hn => scatter_step_hit d idx upd q r n hn)
    (u.rowMajor j₀) (by rw [Equiv.symm_apply_apply]; exact h₀) (List.finRange u.numel) x (List.mem_finRange _)
    (fun m _ hm => by rw [← huniq _ hm, Equiv.apply_symm_apply])
  rw [Equiv.symm_apply_apply] at key
  exact key

end Scatter

/-! ## The reference's scatter: the interior window written at rows and columns 1 to 30 -/

section Reference

/-- The scatter's start index: each of its two components is 1. -/
theorem v45_apply (k : S2.Idx) : val_main_v45 (F := Ideal) k = 1#32 := by
  have h2 : (k 0).val < 2 := (k 0).isLt
  unfold val_main_v45
  by_cases h0 : (k 0).val = 0
  · refine (concatenate_pair_apply_left (s₁ := S1) (s₂ := S1) _ _ _ _ k rfl (ix1 (⟨0, by decide⟩ : Fin 1)) (fun b => ?_)).trans ?_
    · match b with | ⟨0, _⟩ => exact h0.symm
    · rw [val_main_v43_apply]; rfl
  · refine (concatenate_pair_apply_right (s₁ := S1) (s₂ := S1) _ _ _ _ k rfl rfl (ix1 (⟨0, by decide⟩ : Fin 1)) (fun b hb => ?_) ?_).trans ?_
    · match b with | ⟨0, _⟩ => exact absurd rfl hb
    · show 0 + 1 = (k 0).val; omega
    · rw [val_main_v44_apply]; rfl

/-- The scatter's dimension numbers: the whole update is one window, started on the row and column axes. -/
abbrev sd : ScatterDims S64x32x32x768 S2 S64x30x30x768 := scatter_S64x32x32x768_S2_S64x30x30x768_0123_n_12_0

/-- Where update index `j` lands: one row down and one column right. -/
abbrev tgt (j : S64x30x30x768.Idx) : S64x32x32x768.Idx :=
  ix4 (⟨(j 0).val, (j 0).isLt⟩ : Fin 64) (⟨1 + (j 1).val, by have h : (j 1).val < 30 := (j 1).isLt; omega⟩ : Fin 32)
    (⟨1 + (j 2).val, by have h : (j 2).val < 30 := (j 2).isLt; omega⟩ : Fin 32) (⟨(j 3).val, (j 3).isLt⟩ : Fin 768)

/-- The window's start on an axis: 1 on the two axes the start index names, 0 on the others. -/
theorem start_eq (j : S64x30x30x768.Idx) (a : Fin S64x32x32x768.rank) :
    sd.start j (val_main_v45 (F := Ideal)) a = if a ∈ sd.scatterDimsToOperandDims then 1 else 0 := by
  unfold ScatterDims.start
  by_cases ha : a ∈ sd.scatterDimsToOperandDims
  · rw [dif_pos ha, if_pos ha, v45_apply]; rfl
  · rw [dif_neg ha, if_neg ha]

/-- Start plus window coordinate, axis by axis. -/
theorem sw_eq (j : S64x30x30x768.Idx) (a : Fin S64x32x32x768.rank) :
    sd.start j (val_main_v45 (F := Ideal)) a + (sd.window j a : ℤ) = ((tgt j a).val : ℤ) := by
  rw [start_eq]
  match a with
  | ⟨0, _⟩ =>
    rw [if_neg (show (⟨0, by decide⟩ : Fin S64x32x32x768.rank) ∉ sd.scatterDimsToOperandDims by decide)]
    have hw : sd.window j ⟨0, by decide⟩ = (j 0).val := rfl
    rw [hw]; show (0 : ℤ) + ((j 0).val : ℤ) = ((j 0).val : ℤ); omega
  | ⟨1, _⟩ =>
    rw [if_pos (show (⟨1, by decide⟩ : Fin S64x32x32x768.rank) ∈ sd.scatterDimsToOperandDims by decide)]
    have hw : sd.window j ⟨1, by decide⟩ = (j 1).val := rfl
    rw [hw]; show (1 : ℤ) + ((j 1).val : ℤ) = ((1 + (j 1).val : ℕ) : ℤ); omega
  | ⟨2, _⟩ =>
    rw [if_pos (show (⟨2, by decide⟩ : Fin S64x32x32x768.rank) ∈ sd.scatterDimsToOperandDims by decide)]
    have hw : sd.window j ⟨2, by decide⟩ = (j 2).val := rfl
    rw [hw]; show (1 : ℤ) + ((j 2).val : ℤ) = ((1 + (j 2).val : ℕ) : ℤ); omega
  | ⟨3, _⟩ =>
    rw [if_neg (show (⟨3, by decide⟩ : Fin S64x32x32x768.rank) ∉ sd.scatterDimsToOperandDims by decide)]
    have hw : sd.window j ⟨3, by decide⟩ = (j 3).val := rfl
    rw [hw]; show (0 : ℤ) + ((j 3).val : ℤ) = ((j 3).val : ℤ); omega

/-- Every update index lands inside the operand, one row down and one column right. -/
theorem resultIdx_eq (j : S64x30x30x768.Idx) :
    sd.resultIdx? j (val_main_v45 (F := Ideal)) = some (tgt j) := by
  unfold ScatterDims.resultIdx?
  split
  · next hc =>
    refine congrArg some (funext fun a => Fin.ext ?_)
    show (sd.start j (val_main_v45 (F := Ideal)) a + (sd.window j a : ℤ)).toNat = (tgt j a).val
    rw [sw_eq]; exact Int.toNat_natCast _
  · next hc =>
    refine absurd (fun a => ?_) hc
    rw [sw_eq]
    exact ⟨Int.natCast_nonneg _, by exact_mod_cast (tgt j a).isLt⟩

variable (x0 : (⟨Cert.ReferenceIdeal.S64x1024x768, .f32⟩ : BufTy).Contents (Elt Ideal))

/-- Inside rows and columns 1 to 30 the scatter reads the update, one row up and one column left. -/
theorem v46_inner (q : S64x32x32x768.Idx) (hq : Cert.Spec.inner q) :
    val_main_v46 (F := Ideal) x0 q
      = val_main_v42 (F := Ideal) x0 (ix4 (Cert.Spec.bOf q) (Cert.Spec.iOf q hq) (Cert.Spec.jOf q hq) (Cert.Spec.dOf q)) := by
  have hq1 : 1 ≤ (q ⟨1, by decide⟩).val := hq.1.1
  have hq2 : 1 ≤ (q ⟨2, by decide⟩).val := hq.2.1
  unfold val_main_v46
  refine scatter_set_hit sd _ _ _ q _ ?_ ?_
  · rw [resultIdx_eq]
    refine congrArg some (funext fun a => Fin.ext ?_)
    match a with
    | ⟨0, _⟩ => rfl
    | ⟨1, _⟩ => show 1 + ((q ⟨1, by decide⟩).val - 1) = (q ⟨1, by decide⟩).val; omega
    | ⟨2, _⟩ => show 1 + ((q ⟨2, by decide⟩).val - 1) = (q ⟨2, by decide⟩).val; omega
    | ⟨3, _⟩ => rfl
  · intro j hj
    rw [resultIdx_eq] at hj
    have e := Option.some.inj hj
    have e0 : (j ⟨0, by decide⟩).val = (q ⟨0, by decide⟩).val :=
      congrArg (fun f : S64x32x32x768.Idx => (f ⟨0, by decide⟩).val) e
    have e1 : 1 + (j ⟨1, by decide⟩).val = (q ⟨1, by decide⟩).val :=
      congrArg (fun f : S64x32x32x768.Idx => (f ⟨1, by decide⟩).val) e
    have e2 : 1 + (j ⟨2, by decide⟩).val = (q ⟨2, by decide⟩).val :=
      congrArg (fun f : S64x32x32x768.Idx => (f ⟨2, by decide⟩).val) e
    have e3 : (j ⟨3, by decide⟩).val = (q ⟨3, by decide⟩).val :=
      congrArg (fun f : S64x32x32x768.Idx => (f ⟨3, by decide⟩).val) e
    funext a
    apply Fin.ext
    match a with
    | ⟨0, _⟩ => exact e0
    | ⟨1, _⟩ => show (j ⟨1, by decide⟩).val = (q ⟨1, by decide⟩).val - 1; omega
    | ⟨2, _⟩ => show (j ⟨2, by decide⟩).val = (q ⟨2, by decide⟩).val - 1; omega
    | ⟨3, _⟩ => exact e3

/-- Outside them no update lands: the scatter reads the operand. -/
theorem v46_outer (q : S64x32x32x768.Idx) (hq : ¬ Cert.Spec.inner q) :
    val_main_v46 (F := Ideal) x0 q = val_main_v0 (F := Ideal) x0 q := by
  unfold val_main_v46
  refine scatter_set_miss sd _ _ _ q (fun j hj => hq ?_)
  rw [resultIdx_eq] at hj
  have e := Option.some.inj hj
  have e1 : 1 + (j ⟨1, by decide⟩).val = (q ⟨1, by decide⟩).val :=
    congrArg (fun f : S64x32x32x768.Idx => (f ⟨1, by decide⟩).val) e
  have e2 : 1 + (j ⟨2, by decide⟩).val = (q ⟨2, by decide⟩).val :=
    congrArg (fun f : S64x32x32x768.Idx => (f ⟨2, by decide⟩).val) e
  have h1 : (j ⟨1, by decide⟩).val < 30 := (j _).isLt
  have h2 : (j ⟨2, by decide⟩).val < 30 := (j _).isLt
  show (1 ≤ (q ⟨1, by decide⟩).val ∧ (q ⟨1, by decide⟩).val ≤ 30) ∧ (1 ≤ (q ⟨2, by decide⟩).val ∧ (q ⟨2, by decide⟩).val ≤ 30)
  omega

end Reference

end Cert.ReferenceIdeal.RefValue

end
-- ==== Proof.RefValue.lean ====
import proofs.«142496_j15977278341524_1_alg».proof.Proof.Gen.ReferenceIdeal.Read
import proofs.«142496_j15977278341524_1_alg».proof.Proof.Spec
import Idealize.ShloMosaic.Lib.ValueIdx
import Idealize.ShloMosaic.Lib.Pipeline.Value
import Idealize.ShloMosaic.PureOps.Ideal.Laws
import Idealize.ShloMosaic.PureOps.Reduce
import proofs.«142496_j15977278341524_1_alg».proof.Proof.RefMask
import proofs.«142496_j15977278341524_1_alg».proof.Proof.RefInterior
import proofs.«142496_j15977278341524_1_alg».proof.Proof.RefScatter

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result before its final reshape is the specification's choice form of the input grid:
    inside rows and columns 1 to 30 the selected interior — the blend at a hot cell, the centre at any other —,
    outside them the input. -/
theorem ref_eq (x0 : (⟨Cert.ReferenceIdeal.S64x1024x768, .f32⟩ : BufTy).Contents (Elt Ideal)) :
    Cert.ReferenceIdeal.Read.val_main_v46 (F := Ideal) x0 = Cert.Spec.outR (Cert.ReferenceIdeal.Read.val_main_v0 (F := Ideal) x0) := by
  funext q
  unfold Cert.Spec.outR
  by_cases hq : Cert.Spec.inner q
  · rw [dif_pos hq, v46_inner x0 q hq, v42_eq]
  · rw [dif_neg hq, v46_outer x0 q hq]

end Cert.ReferenceIdeal.RefValue

end
-- ==== Proof.Finite.lean ====
/-
  Finiteness of the input, decoded from the precondition: the predicate is the conjunction, over every entry x of the
  input array, of |x| < +∞; when it is all ones every entry is a real number.
-/
import proofs.«142496_j15977278341524_1_alg».proof.Pre_finite_inputs
import Idealize.ShloMosaic.Lib.ReduceAll
import Idealize.ShloMosaic.Lib.ValueIdx
import Idealize.ShloMosaic.PureOps.Ideal.Laws

noncomputable section

namespace Cert.FiniteInput

open Idealize.ShloMosaic Cert.Pre_finite_inputs

instance : Subsingleton S_.Idx := ⟨fun a b => funext fun d => d.elim0⟩

/-- The word the predicate compares against denotes +∞. -/
theorem ofBits_inf : Ideal.ofBits .f32 0x7F800000#32 = (⊤ : EReal) := by
  simp [Ideal.ofBits, Ideal.ieee]

/-- An extended real whose absolute value is below +∞ is a real. -/
theorem real_of_abs_lt_top (a : EReal) (h : max a (-a) < (⊤ : EReal)) : ∃ r : ℝ, a = (r : EReal) := by
  induction a using EReal.rec with
  | bot => simp at h
  | top => simp at h
  | coe r => exact ⟨r, rfl⟩

/-- Under the precondition every entry of the input is a real. -/
theorem real_of_pre [Facts] (x : FVec Ideal S64x1024x768 .f32) (h : fn (F := Ideal) x = fun _ => 1#1) (i : S64x1024x768.Idx) :
    ∃ r : ℝ, x i = (r : EReal) := by
  have h0 := congrFun h ValueIdx.ix0
  dsimp only [fn] at h0
  have hi := Host.reduce_andi_all _ _ _ _ _ h0 i
  have hc : Ideal.cmp .olt (max (x i) (-(x i))) (Ideal.ofBits .f32 0x7F800000#32) = 1#1 := hi
  rw [ofBits_inf] at hc
  refine real_of_abs_lt_top (x i) ?_
  by_contra hn
  unfold Ideal.cmp at hc
  simp [hn] at hc

end Cert.FiniteInput

end
-- ==== Proof.lean ====
/-
  The kernel against its reference. The input is a batch of 64 grids of 32 × 32 patches of 768 features. An interior
  cell is HOT when, in some grid of the batch, one of the four edges at the cell has Euclidean length above 1; at a hot
  cell every grid's patch is replaced by ½·centre + ½·(¼·(sum of the four neighbours)), elsewhere the input is kept.

  The kernel computes this in two regions: the first accumulates the hot cells as a 0/1 array, two grids per grid
  point, by a running maximum reset at the first point; the second writes centre + cell·(blend − centre) over the
  interior of each grid's copy. The reference takes the disjunction over the batch of the comparisons and selects
  between blend and centre. At the ideal values the running maximum of 0/1 indicators is the indicator of the
  disjunction, and on a FINITE input centre + 1·(blend − centre) = blend and centre + 0·(blend − centre) = centre, so
  the two results are one array (the precondition's finiteness is used exactly there: at an infinite centre the
  kernel's form is −∞).

  The three frames: the kernel's two programs by running each region's body at every grid point (the accumulating body
  in its two control cases, the blending body whose second store overwrites the interior of its first) and launching
  the regions in order between the host's two reshapes; the reference's by its run.
-/
import proofs.«142496_j15977278341524_1_alg».proof.Defs
import proofs.«142496_j15977278341524_1_alg».proof.Proof.Gen.Kernel
import proofs.«142496_j15977278341524_1_alg».proof.Proof.Gen.KernelIdeal
import proofs.«142496_j15977278341524_1_alg».proof.Proof.Gen.ReferenceIdeal
import proofs.«142496_j15977278341524_1_alg».proof.Proof.Gen.ReferenceIdeal.Run
import proofs.«142496_j15977278341524_1_alg».proof.Proof.Gen.ReferenceIdeal.Read
import proofs.«142496_j15977278341524_1_alg».proof.Proof.Gen.Pre_finite_inputs
import proofs.«142496_j15977278341524_1_alg».proof.Proof.K.Run
import proofs.«142496_j15977278341524_1_alg».proof.Proof.Run
import proofs.«142496_j15977278341524_1_alg».proof.Proof.KernelValue
import proofs.«142496_j15977278341524_1_alg».proof.Proof.RefValue
import proofs.«142496_j15977278341524_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values, from memories agreeing on a finite argument, both programs end with the argument's grids
    blended at the hot interior cells and kept elsewhere. -/
theorem algebraic : Cert.algebraic_KernelIdeal_ReferenceIdeal := by
  intro m ρ m' ρ' hpre hagree
  refine ⟨fun c => shapeCast Cert.KernelIdeal.S64x1024x768
      (Cert.Spec.outR (shapeCast Cert.KernelIdeal.S64x32x32x768 (m ((c.tc : Thread Cert.KernelIdeal.nD Cert.KernelIdeal.τ).loc Cert.KernelIdeal.main_arg0))
        Cert.KernelIdeal.Gen.shapeCasts_S64x1024x768_S64x32x32x768))
      Cert.KernelIdeal.Gen.shapeCasts_S64x32x32x768_S64x1024x768, ?_, ?_⟩
  · exact (θ_run Cert.KernelIdeal.defs _ _).mono
      (fun r h c => ⟨(h c).1.trans (Cert.KernelIdeal.Hand.kernel_value m ρ c (Cert.FiniteInput.real_of_pre _ (hpre c))), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq]
    unfold Cert.ReferenceIdeal.Read.val_main_v47
    rw [Cert.ReferenceIdeal.RefValue.ref_eq, hagree c]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
